-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S1x512, .f32⟩
  | .hbm, ⟨5, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1024x512.size a
  hwx0_3 : ∀ i : grid0.Coords, EltTy.bits .f32 = 32 ∨ (Rect.block (s := S1024x512) S512x512.size (cc0_transform_3 i) (hinb0_3 i)).WholeWords (EltTy.packing .f32)

class Shapes1.Facts₀ : Prop where
  transposes_S512x512_S512x512_1_0 : S512x512.Transposes [1, 0] S512x512
  shapeCasts_S512_S1x512 : S512.ShapeCasts S1x512
  inb_S512x512_S512x1_0_0 : ∀ a, (![0, 0] : Fin 2 → Nat) a + S512x1.size a ≤ S512x512.size a
  h_S512x1 : 0 < S512x1.numel
  shapeCasts_S512x1_S512 : S512x1.ShapeCasts S512
  inb_S512x512_S1x512_0_0 : ∀ a, (![0, 0] : Fin 2 → Nat) a + S1x512.size a ≤ S512x512.size a
  h_S1x512 : 0 < S1x512.numel
  shapeCasts_S1x512_S512 : S1x512.ShapeCasts S512
  shapeCasts_S512_S512x1 : S512.ShapeCasts S512x1
  broadcasts_S512x1_S512x512 : S512x1.Broadcasts S512x512
  broadcasts_S1x512_S512x512 : S1x512.Broadcasts S512x512
  inb_S512x512_S512x1_0_1 : ∀ a, (![0, 1] : Fin 2 → Nat) a + S512x1.size a ≤ S512x512.size a
  inb_S512x512_S1x512_1_0 : ∀ a, (![1, 0] : Fin 2 → Nat) a + S1x512.size a ≤ S512x512.size a
  inb_S512x512_S512x1_0_2 : ∀ a, (![0, 2] : Fin 2 → Nat) a + S512x1.size a ≤ S512x512.size a
  inb_S512x512_S1x512_2_0 : ∀ a, (![2, 0] : Fin 2 → Nat) a + S1x512.size a ≤ S512x512.size a
  inb_S512x512_S512x1_0_3 : ∀ a, (![0, 3] : Fin 2 → Nat) a + S512x1.size a ≤ S512x512.size a
  inb_S512x512_S1x512_3_0 : ∀ a, (![3, 0] : Fin 2 → Nat) a + S1x512.size a ≤ S512x512.size a
  inb_S512x512_S512x1_0_4 : ∀ a, (![0, 4] : Fin 2 → Nat) a + S512x1.size a ≤ S512x512.size a
  inb_S512x512_S1x512_4_0 : ∀ a, (![4, 0] : Fin 2 → Nat) a + S1x512.size a ≤ S512x512.size a
  inb_S512x512_S512x1_0_5 : ∀ a, (![0, 5] : Fin 2 → Nat) a + S512x1.size a ≤ S512x512.size a
  inb_S512x512_S1x512_5_0 : ∀ a, (![5, 0] : Fin 2 → Nat) a + S1x512.size a ≤ S512x512.size a
  inb_S512x512_S512x1_0_6 : ∀ a, (![0, 6] : Fin 2 → Nat) a + S512x1.size a ≤ S512x512.size a
  inb_S512x512_S1x512_6_0 : ∀ a, (![6, 0] : Fin 2 → Nat) a + S1x512.size a ≤ S512x512.size a
  inb_S512x512_S512x1_0_7 : ∀ a, (![0, 7] : Fin 2 → Nat) a + S512x1.size a ≤ S512x512.size a
  inb_S512x512_S1x512_7_0 : ∀ a, (![7, 0] : Fin 2 → Nat) a + S1x512.size a ≤ S512x512.size a
  inb_S512x512_S512x1_0_8 : ∀ a, (![0, 8] : Fin 2 → Nat) a + S512x1.size a ≤ S512x512.size a
  inb_S512x512_S1x512_8_0 : ∀ a, (![8, 0] : Fin 2 → Nat) a + S1x512.size a ≤ S512x512.size a
  inb_S512x512_S512x1_0_9 : ∀ a, (![0, 9] : Fin 2 → Nat) a + S512x1.size a ≤ S512x512.size a
  inb_S512x512_S1x512_9_0 : ∀ a, (![9, 0] : Fin 2 → Nat) a + S1x512.size a ≤ S512x512.size a
  inb_S512x512_S512x1_0_10 : ∀ a, (![0, 10] : Fin 2 → Nat) a + S512x1.size a ≤ S512x512.size a
  inb_S512x512_S1x512_10_0 : ∀ a, (![10, 0] : Fin 2 → Nat) a + S1x512.size a ≤ S512x512.size a
  inb_S512x512_S512x1_0_11 : ∀ a, (![0, 11] : Fin 2 → Nat) a + S512x1.size a ≤ S512x512.size a
  inb_S512x512_S1x512_11_0 : ∀ a, (![11, 0] : Fin 2 → Nat) a + S1x512.size a ≤ S512x512.size a
  inb_S512x512_S512x1_0_12 : ∀ a, (![0, 12] : Fin 2 → Nat) a + S512x1.size a ≤ S512x512.size a
  inb_S512x512_S1x512_12_0 : ∀ a, (![12, 0] : Fin 2 → Nat) a + S1x512.size a ≤ S512x512.size a
  inb_S512x512_S512x1_0_13 : ∀ a, (![0, 13] : Fin 2 → Nat) a + S512x1.size a ≤ S512x512.size a
  inb_S512x512_S1x512_13_0 : ∀ a, (![13, 0] : Fin 2 → Nat) a + S1x512.size a ≤ S512x512.size a
  inb_S512x512_S512x1_0_14 : ∀ a, (![0, 14] : Fin 2 → Nat) a + S512x1.size a ≤ S512x512.size a
  inb_S512x512_S1x512_14_0 : ∀ a, (![14, 0] : Fin 2 → Nat) a + S1x512.size a ≤ S512x512.size a
  inb_S512x512_S512x1_0_15 : ∀ a, (![0, 15] : Fin 2 → Nat) a + S512x1.size a ≤ S512x512.size a
  inb_S512x512_S1x512_15_0 : ∀ a, (![15, 0] : Fin 2 → Nat) a + S1x512.size a ≤ S512x512.size a
  inb_S512x512_S512x1_0_16 : ∀ a, (![0, 16] : Fin 2 → Nat) a + S512x1.size a ≤ S512x512.size a
  inb_S512x512_S1x512_16_0 : ∀ a, (![16, 0] : Fin 2 → Nat) a + S1x512.size a ≤ S512x512.size a
  inb_S512x512_S512x1_0_17 : ∀ a, (![0, 17] : Fin 2 → Nat) a + S512x1.size a ≤ S512x512.size a
  inb_S512x512_S1x512_17_0 : ∀ a, (![17, 0] : Fin 2 → Nat) a + S1x512.size a ≤ S512x512.size a
  inb_S512x512_S512x1_0_18 : ∀ a, (![0, 18] : Fin 2 → Nat) a + S512x1.size a ≤ S512x512.size a
  inb_S512x512_S1x512_18_0 : ∀ a, (![18, 0] : Fin 2 → Nat) a + S1x512.size a ≤ S512x512.size a
  inb_S512x512_S512x1_0_19 : ∀ a, (![0, 19] : Fin 2 → Nat) a + S512x1.size a ≤ S512x512.size a
  inb_S512x512_S1x512_19_0 : ∀ a, (![19, 0] : Fin 2 → Nat) a + S1x512.size a ≤ S512x512.size a
  inb_S512x512_S512x1_0_20 : ∀ a, (![0, 20] : Fin 2 → Nat) a + S512x1.size a ≤ S512x512.size a
  inb_S512x512_S1x512_20_0 : ∀ a, (![20, 0] : Fin 2 → Nat) a + S1x512.size a ≤ S512x512.size a
  inb_S512x512_S512x1_0_21 : ∀ a, (![0, 21] : Fin 2 → Nat) a + S512x1.size a ≤ S512x512.size a
  inb_S512x512_S1x512_21_0 : ∀ a, (![21, 0] : Fin 2 → Nat) a + S1x512.size a ≤ S512x512.size a
  inb_S512x512_S512x1_0_22 : ∀ a, (![0, 22] : Fin 2 → Nat) a + S512x1.size a ≤ S512x512.size a
  inb_S512x512_S1x512_22_0 : ∀ a, (![22, 0] : Fin 2 → Nat) a + S1x512.size a ≤ S512x512.size a
  inb_S512x512_S512x1_0_23 : ∀ a, (![0, 23] : Fin 2 → Nat) a + S512x1.size a ≤ S512x512.size a
  inb_S512x512_S1x512_23_0 : ∀ a, (![23, 0] : Fin 2 → Nat) a + S1x512.size a ≤ S512x512.size a
  inb_S512x512_S512x1_0_24 : ∀ a, (![0, 24] : Fin 2 → Nat) a + S512x1.size a ≤ S512x512.size a
  inb_S512x512_S1x512_24_0 : ∀ a, (![24, 0] : Fin 2 → Nat) a + S1x512.size a ≤ S512x512.size a
  inb_S512x512_S512x1_0_25 : ∀ a, (![0, 25] : Fin 2 → Nat) a + S512x1.size a ≤ S512x512.size a
  inb_S512x512_S1x512_25_0 : ∀ a, (![25, 0] : Fin 2 → Nat) a + S1x512.size a ≤ S512x512.size a
  inb_S512x512_S512x1_0_26 : ∀ a, (![0, 26] : Fin 2 → Nat) a + S512x1.size a ≤ S512x512.size a
  inb_S512x512_S1x512_26_0 : ∀ a, (![26, 0] : Fin 2 → Nat) a + S1x512.size a ≤ S512x512.size a
  inb_S512x512_S512x1_0_27 : ∀ a, (![0, 27] : Fin 2 → Nat) a + S512x1.size a ≤ S512x512.size a
  inb_S512x512_S1x512_27_0 : ∀ a, (![27, 0] : Fin 2 → Nat) a + S1x512.size a ≤ S512x512.size a
  inb_S512x512_S512x1_0_28 : ∀ a, (![0, 28] : Fin 2 → Nat) a + S512x1.size a ≤ S512x512.size a
  inb_S512x512_S1x512_28_0 : ∀ a, (![28, 0] : Fin 2 → Nat) a + S1x512.size a ≤ S512x512.size a
  inb_S512x512_S512x1_0_29 : ∀ a, (![0, 29] : Fin 2 → Nat) a + S512x1.size a ≤ S512x512.size a
  inb_S512x512_S1x512_29_0 : ∀ a, (![29, 0] : Fin 2 → Nat) a + S1x512.size a ≤ S512x512.size a
  inb_S512x512_S512x1_0_30 : ∀ a, (![0, 30] : Fin 2 → Nat) a + S512x1.size a ≤ S512x512.size a
  inb_S512x512_S1x512_30_0 : ∀ a, (![30, 0] : Fin 2 → Nat) a + S1x512.size a ≤ S512x512.size a
  inb_S512x512_S512x1_0_31 : ∀ a, (![0, 31] : Fin 2 → Nat) a + S512x1.size a ≤ S512x512.size a
  inb_S512x512_S1x512_31_0 : ∀ a, (![31, 0] : Fin 2 → Nat) a + S1x512.size a ≤ S512x512.size a
  inb_S512x512_S512x1_0_32 : ∀ a, (![0, 32] : Fin 2 → Nat) a + S512x1.size a ≤ S512x512.size a
  inb_S512x512_S1x512_32_0 : ∀ a, (![32, 0] : Fin 2 → Nat) a + S1x512.size a ≤ S512x512.size a
  inb_S512x512_S512x1_0_33 : ∀ a, (![0, 33] : Fin 2 → Nat) a + S512x1.size a ≤ S512x512.size a
  inb_S512x512_S1x512_33_0 : ∀ a, (![33, 0] : Fin 2 → Nat) a + S1x512.size a ≤ S512x512.size a
  inb_S512x512_S512x1_0_34 : ∀ a, (![0, 34] : Fin 2 → Nat) a + S512x1.size a ≤ S512x512.size a
  inb_S512x512_S1x512_34_0 : ∀ a, (![34, 0] : Fin 2 → Nat) a + S1x512.size a ≤ S512x512.size a
  inb_S512x512_S512x1_0_35 : ∀ a, (![0, 35] : Fin 2 → Nat) a + S512x1.size a ≤ S512x512.size a
  inb_S512x512_S1x512_35_0 : ∀ a, (![35, 0] : Fin 2 → Nat) a + S1x512.size a ≤ S512x512.size a
  inb_S512x512_S512x1_0_36 : ∀ a, (![0, 36] : Fin 2 → Nat) a + S512x1.size a ≤ S512x512.size a
  inb_S512x512_S1x512_36_0 : ∀ a, (![36, 0] : Fin 2 → Nat) a + S1x512.size a ≤ S512x512.size a
  inb_S512x512_S512x1_0_37 : ∀ a, (![0, 37] : Fin 2 → Nat) a + S512x1.size a ≤ S512x512.size a
  inb_S512x512_S1x512_37_0 : ∀ a, (![37, 0] : Fin 2 → Nat) a + S1x512.size a ≤ S512x512.size a
  inb_S512x512_S512x1_0_38 : ∀ a, (![0, 38] : Fin 2 → Nat) a + S512x1.size a ≤ S512x512.size a
  inb_S512x512_S1x512_38_0 : ∀ a, (![38, 0] : Fin 2 → Nat) a + S1x512.size a ≤ S512x512.size a
  inb_S512x512_S512x1_0_39 : ∀ a, (![0, 39] : Fin 2 → Nat) a + S512x1.size a ≤ S512x512.size a
  inb_S512x512_S1x512_39_0 : ∀ a, (![39, 0] : Fin 2 → Nat) a + S1x512.size a ≤ S512x512.size a
  inb_S512x512_S512x1_0_40 : ∀ a, (![0, 40] : Fin 2 → Nat) a + S512x1.size a ≤ S512x512.size a
  inb_S512x512_S1x512_40_0 : ∀ a, (![40, 0] : Fin 2 → Nat) a + S1x512.size a ≤ S512x512.size a
  inb_S512x512_S512x1_0_41 : ∀ a, (![0, 41] : Fin 2 → Nat) a + S512x1.size a ≤ S512x512.size a
  inb_S512x512_S1x512_41_0 : ∀ a, (![41, 0] : Fin 2 → Nat) a + S1x512.size a ≤ S512x512.size a
  inb_S512x512_S512x1_0_42 : ∀ a, (![0, 42] : Fin 2 → Nat) a + S512x1.size a ≤ S512x512.size a
  inb_S512x512_S1x512_42_0 : ∀ a, (![42, 0] : Fin 2 → Nat) a + S1x512.size a ≤ S512x512.size a
  inb_S512x512_S512x1_0_43 : ∀ a, (![0, 43] : Fin 2 → Nat) a + S512x1.size a ≤ S512x512.size a
  inb_S512x512_S1x512_43_0 : ∀ a, (![43, 0] : Fin 2 → Nat) a + S1x512.size a ≤ S512x512.size a
  inb_S512x512_S512x1_0_44 : ∀ a, (![0, 44] : Fin 2 → Nat) a + S512x1.size a ≤ S512x512.size a
  inb_S512x512_S1x512_44_0 : ∀ a, (![44, 0] : Fin 2 → Nat) a + S1x512.size a ≤ S512x512.size a
  inb_S512x512_S512x1_0_45 : ∀ a, (![0, 45] : Fin 2 → Nat) a + S512x1.size a ≤ S512x512.size a
  inb_S512x512_S1x512_45_0 : ∀ a, (![45, 0] : Fin 2 → Nat) a + S1x512.size a ≤ S512x512.size a
  inb_S512x512_S512x1_0_46 : ∀ a, (![0, 46] : Fin 2 → Nat) a + S512x1.size a ≤ S512x512.size a
  inb_S512x512_S1x512_46_0 : ∀ a, (![46, 0] : Fin 2 → Nat) a + S1x512.size a ≤ S512x512.size a
  inb_S512x512_S512x1_0_47 : ∀ a, (![0, 47] : Fin 2 → Nat) a + S512x1.size a ≤ S512x512.size a
  inb_S512x512_S1x512_47_0 : ∀ a, (![47, 0] : Fin 2 → Nat) a + S1x512.size a ≤ S512x512.size a
  inb_S512x512_S512x1_0_48 : ∀ a, (![0, 48] : Fin 2 → Nat) a + S512x1.size a ≤ S512x512.size a
  inb_S512x512_S1x512_48_0 : ∀ a, (![48, 0] : Fin 2 → Nat) a + S1x512.size a ≤ S512x512.size a
  inb_S512x512_S512x1_0_49 : ∀ a, (![0, 49] : Fin 2 → Nat) a + S512x1.size a ≤ S512x512.size a
  inb_S512x512_S1x512_49_0 : ∀ a, (![49, 0] : Fin 2 → Nat) a + S1x512.size a ≤ S512x512.size a
  inb_S512x512_S512x1_0_50 : ∀ a, (![0, 50] : Fin 2 → Nat) a + S512x1.size a ≤ S512x512.size a
  inb_S512x512_S1x512_50_0 : ∀ a, (![50, 0] : Fin 2 → Nat) a + S1x512.size a ≤ S512x512.size a
  inb_S512x512_S512x1_0_51 : ∀ a, (![0, 51] : Fin 2 → Nat) a + S512x1.size a ≤ S512x512.size a
  inb_S512x512_S1x512_51_0 : ∀ a, (![51, 0] : Fin 2 → Nat) a + S1x512.size a ≤ S512x512.size a
  inb_S512x512_S512x1_0_52 : ∀ a, (![0, 52] : Fin 2 → Nat) a + S512x1.size a ≤ S512x512.size a
  inb_S512x512_S1x512_52_0 : ∀ a, (![52, 0] : Fin 2 → Nat) a + S1x512.size a ≤ S512x512.size a
  inb_S512x512_S512x1_0_53 : ∀ a, (![0, 53] : Fin 2 → Nat) a + S512x1.size a ≤ S512x512.size a
  inb_S512x512_S1x512_53_0 : ∀ a, (![53, 0] : Fin 2 → Nat) a + S1x512.size a ≤ S512x512.size a
  inb_S512x512_S512x1_0_54 : ∀ a, (![0, 54] : Fin 2 → Nat) a + S512x1.size a ≤ S512x512.size a
  inb_S512x512_S1x512_54_0 : ∀ a, (![54, 0] : Fin 2 → Nat) a + S1x512.size a ≤ S512x512.size a
  inb_S512x512_S512x1_0_55 : ∀ a, (![0, 55] : Fin 2 → Nat) a + S512x1.size a ≤ S512x512.size a
  inb_S512x512_S1x512_55_0 : ∀ a, (![55, 0] : Fin 2 → Nat) a + S1x512.size a ≤ S512x512.size a
  inb_S512x512_S512x1_0_56 : ∀ a, (![0, 56] : Fin 2 → Nat) a + S512x1.size a ≤ S512x512.size a
  inb_S512x512_S1x512_56_0 : ∀ a, (![56, 0] : Fin 2 → Nat) a + S1x512.size a ≤ S512x512.size a
  inb_S512x512_S512x1_0_57 : ∀ a, (![0, 57] : Fin 2 → Nat) a + S512x1.size a ≤ S512x512.size a
  inb_S512x512_S1x512_57_0 : ∀ a, (![57, 0] : Fin 2 → Nat) a + S1x512.size a ≤ S512x512.size a
  inb_S512x512_S512x1_0_58 : ∀ a, (![0, 58] : Fin 2 → Nat) a + S512x1.size a ≤ S512x512.size a
  inb_S512x512_S1x512_58_0 : ∀ a, (![58, 0] : Fin 2 → Nat) a + S1x512.size a ≤ S512x512.size a
  inb_S512x512_S512x1_0_59 : ∀ a, (![0, 59] : Fin 2 → Nat) a + S512x1.size a ≤ S512x512.size a
  inb_S512x512_S1x512_59_0 : ∀ a, (![59, 0] : Fin 2 → Nat) a + S1x512.size a ≤ S512x512.size a
  inb_S512x512_S512x1_0_60 : ∀ a, (![0, 60] : Fin 2 → Nat) a + S512x1.size a ≤ S512x512.size a
  inb_S512x512_S1x512_60_0 : ∀ a, (![60, 0] : Fin 2 → Nat) a + S1x512.size a ≤ S512x512.size a
  inb_S512x512_S512x1_0_61 : ∀ a, (![0, 61] : Fin 2 → Nat) a + S512x1.size a ≤ S512x512.size a
  inb_S512x512_S1x512_61_0 : ∀ a, (![61, 0] : Fin 2 → Nat) a + S1x512.size a ≤ S512x512.size a
  inb_S512x512_S512x1_0_62 : ∀ a, (![0, 62] : Fin 2 → Nat) a + S512x1.size a ≤ S512x512.size a
  inb_S512x512_S1x512_62_0 : ∀ a, (![62, 0] : Fin 2 → Nat) a + S1x512.size a ≤ S512x512.size a
  inb_S512x512_S512x1_0_63 : ∀ a, (![0, 63] : Fin 2 → Nat) a + S512x1.size a ≤ S512x512.size a
  inb_S512x512_S1x512_63_0 : ∀ a, (![63, 0] : Fin 2 → Nat) a + S1x512.size a ≤ S512x512.size a
  inb_S512x512_S512x1_0_64 : ∀ a, (![0, 64] : Fin 2 → Nat) a + S512x1.size a ≤ S512x512.size a
  inb_S512x512_S1x512_64_0 : ∀ a, (![64, 0] : Fin 2 → Nat) a + S1x512.size a ≤ S512x512.size a
  inb_S512x512_S512x1_0_65 : ∀ a, (![0, 65] : Fin 2 → Nat) a + S512x1.size a ≤ S512x512.size a
  inb_S512x512_S1x512_65_0 : ∀ a, (![65, 0] : Fin 2 → Nat) a + S1x512.size a ≤ S512x512.size a
  inb_S512x512_S512x1_0_66 : ∀ a, (![0, 66] : Fin 2 → Nat) a + S512x1.size a ≤ S512x512.size a
  inb_S512x512_S1x512_66_0 : ∀ a, (![66, 0] : Fin 2 → Nat) a + S1x512.size a ≤ S512x512.size a
  inb_S512x512_S512x1_0_67 : ∀ a, (![0, 67] : Fin 2 → Nat) a + S512x1.size a ≤ S512x512.size a
  inb_S512x512_S1x512_67_0 : ∀ a, (![67, 0] : Fin 2 → Nat) a + S1x512.size a ≤ S512x512.size a
  inb_S512x512_S512x1_0_68 : ∀ a, (![0, 68] : Fin 2 → Nat) a + S512x1.size a ≤ S512x512.size a
  inb_S512x512_S1x512_68_0 : ∀ a, (![68, 0] : Fin 2 → Nat) a + S1x512.size a ≤ S512x512.size a
  inb_S512x512_S512x1_0_69 : ∀ a, (![0, 69] : Fin 2 → Nat) a + S512x1.size a ≤ S512x512.size a
  inb_S512x512_S1x512_69_0 : ∀ a, (![69, 0] : Fin 2 → Nat) a + S1x512.size a ≤ S512x512.size a
  inb_S512x512_S512x1_0_70 : ∀ a, (![0, 70] : Fin 2 → Nat) a + S512x1.size a ≤ S512x512.size a
  inb_S512x512_S1x512_70_0 : ∀ a, (![70, 0] : Fin 2 → Nat) a + S1x512.size a ≤ S512x512.size a
  inb_S512x512_S512x1_0_71 : ∀ a, (![0, 71] : Fin 2 → Nat) a + S512x1.size a ≤ S512x512.size a
  inb_S512x512_S1x512_71_0 : ∀ a, (![71, 0] : Fin 2 → Nat) a + S1x512.size a ≤ S512x512.size a
  inb_S512x512_S512x1_0_72 : ∀ a, (![0, 72] : Fin 2 → Nat) a + S512x1.size a ≤ S512x512.size a
  inb_S512x512_S1x512_72_0 : ∀ a, (![72, 0] : Fin 2 → Nat) a + S1x512.size a ≤ S512x512.size a
  inb_S512x512_S512x1_0_73 : ∀ a, (![0, 73] : Fin 2 → Nat) a + S512x1.size a ≤ S512x512.size a
  inb_S512x512_S1x512_73_0 : ∀ a, (![73, 0] : Fin 2 → Nat) a + S1x512.size a ≤ S512x512.size a
  inb_S512x512_S512x1_0_74 : ∀ a, (![0, 74] : Fin 2 → Nat) a + S512x1.size a ≤ S512x512.size a
  inb_S512x512_S1x512_74_0 : ∀ a, (![74, 0] : Fin 2 → Nat) a + S1x512.size a ≤ S512x512.size a
  inb_S512x512_S512x1_0_75 : ∀ a, (![0, 75] : Fin 2 → Nat) a + S512x1.size a ≤ S512x512.size a
  inb_S512x512_S1x512_75_0 : ∀ a, (![75, 0] : Fin 2 → Nat) a + S1x512.size a ≤ S512x512.size a
  inb_S512x512_S512x1_0_76 : ∀ a, (![0, 76] : Fin 2 → Nat) a + S512x1.size a ≤ S512x512.size a
  inb_S512x512_S1x512_76_0 : ∀ a, (![76, 0] : Fin 2 → Nat) a + S1x512.size a ≤ S512x512.size a
  inb_S512x512_S512x1_0_77 : ∀ a, (![0, 77] : Fin 2 → Nat) a + S512x1.size a ≤ S512x512.size a
  inb_S512x512_S1x512_77_0 : ∀ a, (![77, 0] : Fin 2 → Nat) a + S1x512.size a ≤ S512x512.size a
  inb_S512x512_S512x1_0_78 : ∀ a, (![0, 78] : Fin 2 → Nat) a + S512x1.size a ≤ S512x512.size a
  inb_S512x512_S1x512_78_0 : ∀ a, (![78, 0] : Fin 2 → Nat) a + S1x512.size a ≤ S512x512.size a
  inb_S512x512_S512x1_0_79 : ∀ a, (![0, 79] : Fin 2 → Nat) a + S512x1.size a ≤ S512x512.size a
  inb_S512x512_S1x512_79_0 : ∀ a, (![79, 0] : Fin 2 → Nat) a + S1x512.size a ≤ S512x512.size a
  inb_S512x512_S512x1_0_80 : ∀ a, (![0, 80] : Fin 2 → Nat) a + S512x1.size a ≤ S512x512.size a
  inb_S512x512_S1x512_80_0 : ∀ a, (![80, 0] : Fin 2 → Nat) a + S1x512.size a ≤ S512x512.size a
  inb_S512x512_S512x1_0_81 : ∀ a, (![0, 81] : Fin 2 → Nat) a + S512x1.size a ≤ S512x512.size a
  inb_S512x512_S1x512_81_0 : ∀ a, (![81, 0] : Fin 2 → Nat) a + S1x512.size a ≤ S512x512.size a
  inb_S512x512_S512x1_0_82 : ∀ a, (![0, 82] : Fin 2 → Nat) a + S512x1.size a ≤ S512x512.size a
  inb_S512x512_S1x512_82_0 : ∀ a, (![82, 0] : Fin 2 → Nat) a + S1x512.size a ≤ S512x512.size a
  inb_S512x512_S512x1_0_83 : ∀ a, (![0, 83] : Fin 2 → Nat) a + S512x1.size a ≤ S512x512.size a
  inb_S512x512_S1x512_83_0 : ∀ a, (![83, 0] : Fin 2 → Nat) a + S1x512.size a ≤ S512x512.size a
  inb_S512x512_S512x1_0_84 : ∀ a, (![0, 84] : Fin 2 → Nat) a + S512x1.size a ≤ S512x512.size a
  inb_S512x512_S1x512_84_0 : ∀ a, (![84, 0] : Fin 2 → Nat) a + S1x512.size a ≤ S512x512.size a
  inb_S512x512_S512x1_0_85 : ∀ a, (![0, 85] : Fin 2 → Nat) a + S512x1.size a ≤ S512x512.size a
  inb_S512x512_S1x512_85_0 : ∀ a, (![85, 0] : Fin 2 → Nat) a + S1x512.size a ≤ S512x512.size a
  inb_S512x512_S512x1_0_86 : ∀ a, (![0, 86] : Fin 2 → Nat) a + S512x1.size a ≤ S512x512.size a
  inb_S512x512_S1x512_86_0 : ∀ a, (![86, 0] : Fin 2 → Nat) a + S1x512.size a ≤ S512x512.size a
  inb_S512x512_S512x1_0_87 : ∀ a, (![0, 87] : Fin 2 → Nat) a + S512x1.size a ≤ S512x512.size a
  inb_S512x512_S1x512_87_0 : ∀ a, (![87, 0] : Fin 2 → Nat) a + S1x512.size a ≤ S512x512.size a
  inb_S512x512_S512x1_0_88 : ∀ a, (![0, 88] : Fin 2 → Nat) a + S512x1.size a ≤ S512x512.size a
  inb_S512x512_S1x512_88_0 : ∀ a, (![88, 0] : Fin 2 → Nat) a + S1x512.size a ≤ S512x512.size a
  inb_S512x512_S512x1_0_89 : ∀ a, (![0, 89] : Fin 2 → Nat) a + S512x1.size a ≤ S512x512.size a
  inb_S512x512_S1x512_89_0 : ∀ a, (![89, 0] : Fin 2 → Nat) a + S1x512.size a ≤ S512x512.size a
  inb_S512x512_S512x1_0_90 : ∀ a, (![0, 90] : Fin 2 → Nat) a + S512x1.size a ≤ S512x512.size a
  inb_S512x512_S1x512_90_0 : ∀ a, (![90, 0] : Fin 2 → Nat) a + S1x512.size a ≤ S512x512.size a
  inb_S512x512_S512x1_0_91 : ∀ a, (![0, 91] : Fin 2 → Nat) a + S512x1.size a ≤ S512x512.size a
  inb_S512x512_S1x512_91_0 : ∀ a, (![91, 0] : Fin 2 → Nat) a + S1x512.size a ≤ S512x512.size a
  inb_S512x512_S512x1_0_92 : ∀ a, (![0, 92] : Fin 2 → Nat) a + S512x1.size a ≤ S512x512.size a
  inb_S512x512_S1x512_92_0 : ∀ a, (![92, 0] : Fin 2 → Nat) a + S1x512.size a ≤ S512x512.size a
  inb_S512x512_S512x1_0_93 : ∀ a, (![0, 93] : Fin 2 → Nat) a + S512x1.size a ≤ S512x512.size a
  inb_S512x512_S1x512_93_0 : ∀ a, (![93, 0] : Fin 2 → Nat) a + S1x512.size a ≤ S512x512.size a
  inb_S512x512_S512x1_0_94 : ∀ a, (![0, 94] : Fin 2 → Nat) a + S512x1.size a ≤ S512x512.size a
  inb_S512x512_S1x512_94_0 : ∀ a, (![94, 0] : Fin 2 → Nat) a + S1x512.size a ≤ S512x512.size a
  inb_S512x512_S512x1_0_95 : ∀ a, (![0, 95] : Fin 2 → Nat) a + S512x1.size a ≤ S512x512.size a
  inb_S512x512_S1x512_95_0 : ∀ a, (![95, 0] : Fin 2 → Nat) a + S1x512.size a ≤ S512x512.size a
  inb_S512x512_S512x1_0_96 : ∀ a, (![0, 96] : Fin 2 → Nat) a + S512x1.size a ≤ S512x512.size a
  inb_S512x512_S1x512_96_0 : ∀ a, (![96, 0] : Fin 2 → Nat) a + S1x512.size a ≤ S512x512.size a
  inb_S512x512_S512x1_0_97 : ∀ a, (![0, 97] : Fin 2 → Nat) a + S512x1.size a ≤ S512x512.size a
  inb_S512x512_S1x512_97_0 : ∀ a, (![97, 0] : Fin 2 → Nat) a + S1x512.size a ≤ S512x512.size a
  inb_S512x512_S512x1_0_98 : ∀ a, (![0, 98] : Fin 2 → Nat) a + S512x1.size a ≤ S512x512.size a
  inb_S512x512_S1x512_98_0 : ∀ a, (![98, 0] : Fin 2 → Nat) a + S1x512.size a ≤ S512x512.size a
  inb_S512x512_S512x1_0_99 : ∀ a, (![0, 99] : Fin 2 → Nat) a + S512x1.size a ≤ S512x512.size a
  inb_S512x512_S1x512_99_0 : ∀ a, (![99, 0] : Fin 2 → Nat) a + S1x512.size a ≤ S512x512.size a
  inb_S512x512_S512x1_0_100 : ∀ a, (![0, 100] : Fin 2 → Nat) a + S512x1.size a ≤ S512x512.size a
  inb_S512x512_S1x512_100_0 : ∀ a, (![100, 0] : Fin 2 → Nat) a + S1x512.size a ≤ S512x512.size a
  inb_S512x512_S512x1_0_101 : ∀ a, (![0, 101] : Fin 2 → Nat) a + S512x1.size a ≤ S512x512.size a
  inb_S512x512_S1x512_101_0 : ∀ a, (![101, 0] : Fin 2 → Nat) a + S1x512.size a ≤ S512x512.size a
  inb_S512x512_S512x1_0_102 : ∀ a, (![0, 102] : Fin 2 → Nat) a + S512x1.size a ≤ S512x512.size a
  inb_S512x512_S1x512_102_0 : ∀ a, (![102, 0] : Fin 2 → Nat) a + S1x512.size a ≤ S512x512.size a
  inb_S512x512_S512x1_0_103 : ∀ a, (![0, 103] : Fin 2 → Nat) a + S512x1.size a ≤ S512x512.size a
  inb_S512x512_S1x512_103_0 : ∀ a, (![103, 0] : Fin 2 → Nat) a + S1x512.size a ≤ S512x512.size a
  inb_S512x512_S512x1_0_104 : ∀ a, (![0, 104] : Fin 2 → Nat) a + S512x1.size a ≤ S512x512.size a
  inb_S512x512_S1x512_104_0 : ∀ a, (![104, 0] : Fin 2 → Nat) a + S1x512.size a ≤ S512x512.size a
  inb_S512x512_S512x1_0_105 : ∀ a, (![0, 105] : Fin 2 → Nat) a + S512x1.size a ≤ S512x512.size a
  inb_S512x512_S1x512_105_0 : ∀ a, (![105, 0] : Fin 2 → Nat) a + S1x512.size a ≤ S512x512.size a
  inb_S512x512_S512x1_0_106 : ∀ a, (![0, 106] : Fin 2 → Nat) a + S512x1.size a ≤ S512x512.size a
  inb_S512x512_S1x512_106_0 : ∀ a, (![106, 0] : Fin 2 → Nat) a + S1x512.size a ≤ S512x512.size a
  inb_S512x512_S512x1_0_107 : ∀ a, (![0, 107] : Fin 2 → Nat) a + S512x1.size a ≤ S512x512.size a
  inb_S512x512_S1x512_107_0 : ∀ a, (![107, 0] : Fin 2 → Nat) a + S1x512.size a ≤ S512x512.size a
  inb_S512x512_S512x1_0_108 : ∀ a, (![0, 108] : Fin 2 → Nat) a + S512x1.size a ≤ S512x512.size a
  inb_S512x512_S1x512_108_0 : ∀ a, (![108, 0] : Fin 2 → Nat) a + S1x512.size a ≤ S512x512.size a
  inb_S512x512_S512x1_0_109 : ∀ a, (![0, 109] : Fin 2 → Nat) a + S512x1.size a ≤ S512x512.size a
  inb_S512x512_S1x512_109_0 : ∀ a, (![109, 0] : Fin 2 → Nat) a + S1x512.size a ≤ S512x512.size a
  inb_S512x512_S512x1_0_110 : ∀ a, (![0, 110] : Fin 2 → Nat) a + S512x1.size a ≤ S512x512.size a
  inb_S512x512_S1x512_110_0 : ∀ a, (![110, 0] : Fin 2 → Nat) a + S1x512.size a ≤ S512x512.size a
  inb_S512x512_S512x1_0_111 : ∀ a, (![0, 111] : Fin 2 → Nat) a + S512x1.size a ≤ S512x512.size a
  inb_S512x512_S1x512_111_0 : ∀ a, (![111, 0] : Fin 2 → Nat) a + S1x512.size a ≤ S512x512.size a
  inb_S512x512_S512x1_0_112 : ∀ a, (![0, 112] : Fin 2 → Nat) a + S512x1.size a ≤ S512x512.size a
  inb_S512x512_S1x512_112_0 : ∀ a, (![112, 0] : Fin 2 → Nat) a + S1x512.size a ≤ S512x512.size a
  inb_S512x512_S512x1_0_113 : ∀ a, (![0, 113] : Fin 2 → Nat) a + S512x1.size a ≤ S512x512.size a
  inb_S512x512_S1x512_113_0 : ∀ a, (![113, 0] : Fin 2 → Nat) a + S1x512.size a ≤ S512x512.size a
  inb_S512x512_S512x1_0_114 : ∀ a, (![0, 114] : Fin 2 → Nat) a + S512x1.size a ≤ S512x512.size a
  inb_S512x512_S1x512_114_0 : ∀ a, (![114, 0] : Fin 2 → Nat) a + S1x512.size a ≤ S512x512.size a
  inb_S512x512_S512x1_0_115 : ∀ a, (![0, 115] : Fin 2 → Nat) a + S512x1.size a ≤ S512x512.size a
  inb_S512x512_S1x512_115_0 : ∀ a, (![115, 0] : Fin 2 → Nat) a + S1x512.size a ≤ S512x512.size a
  inb_S512x512_S512x1_0_116 : ∀ a, (![0, 116] : Fin 2 → Nat) a + S512x1.size a ≤ S512x512.size a
  inb_S512x512_S1x512_116_0 : ∀ a, (![116, 0] : Fin 2 → Nat) a + S1x512.size a ≤ S512x512.size a
  inb_S512x512_S512x1_0_117 : ∀ a, (![0, 117] : Fin 2 → Nat) a + S512x1.size a ≤ S512x512.size a
  inb_S512x512_S1x512_117_0 : ∀ a, (![117, 0] : Fin 2 → Nat) a + S1x512.size a ≤ S512x512.size a
  inb_S512x512_S512x1_0_118 : ∀ a, (![0, 118] : Fin 2 → Nat) a + S512x1.size a ≤ S512x512.size a
  inb_S512x512_S1x512_118_0 : ∀ a, (![118, 0] : Fin 2 → Nat) a + S1x512.size a ≤ S512x512.size a
  inb_S512x512_S512x1_0_119 : ∀ a, (![0, 119] : Fin 2 → Nat) a + S512x1.size a ≤ S512x512.size a
  inb_S512x512_S1x512_119_0 : ∀ a, (![119, 0] : Fin 2 → Nat) a + S1x512.size a ≤ S512x512.size a
  inb_S512x512_S512x1_0_120 : ∀ a, (![0, 120] : Fin 2 → Nat) a + S512x1.size a ≤ S512x512.size a
  inb_S512x512_S1x512_120_0 : ∀ a, (![120, 0] : Fin 2 → Nat) a + S1x512.size a ≤ S512x512.size a
  inb_S512x512_S512x1_0_121 : ∀ a, (![0, 121] : Fin 2 → Nat) a + S512x1.size a ≤ S512x512.size a
  inb_S512x512_S1x512_121_0 : ∀ a, (![121, 0] : Fin 2 → Nat) a + S1x512.size a ≤ S512x512.size a
  inb_S512x512_S512x1_0_122 : ∀ a, (![0, 122] : Fin 2 → Nat) a + S512x1.size a ≤ S512x512.size a
  inb_S512x512_S1x512_122_0 : ∀ a, (![122, 0] : Fin 2 → Nat) a + S1x512.size a ≤ S512x512.size a
  inb_S512x512_S512x1_0_123 : ∀ a, (![0, 123] : Fin 2 → Nat) a + S512x1.size a ≤ S512x512.size a
  inb_S512x512_S1x512_123_0 : ∀ a, (![123, 0] : Fin 2 → Nat) a + S1x512.size a ≤ S512x512.size a
  inb_S512x512_S512x1_0_124 : ∀ a, (![0, 124] : Fin 2 → Nat) a + S512x1.size a ≤ S512x512.size a
  inb_S512x512_S1x512_124_0 : ∀ a, (![124, 0] : Fin 2 → Nat) a + S1x512.size a ≤ S512x512.size a
  inb_S512x512_S512x1_0_125 : ∀ a, (![0, 125] : Fin 2 → Nat) a + S512x1.size a ≤ S512x512.size a
  inb_S512x512_S1x512_125_0 : ∀ a, (![125, 0] : Fin 2 → Nat) a + S1x512.size a ≤ S512x512.size a
  inb_S512x512_S512x1_0_126 : ∀ a, (![0, 126] : Fin 2 → Nat) a + S512x1.size a ≤ S512x512.size a
  inb_S512x512_S1x512_126_0 : ∀ a, (![126, 0] : Fin 2 → Nat) a + S1x512.size a ≤ S512x512.size a
  inb_S512x512_S512x1_0_127 : ∀ a, (![0, 127] : Fin 2 → Nat) a + S512x1.size a ≤ S512x512.size a
  inb_S512x512_S1x512_127_0 : ∀ a, (![127, 0] : Fin 2 → Nat) a + S1x512.size a ≤ S512x512.size a
  inb_S512x512_S512x1_0_128 : ∀ a, (![0, 128] : Fin 2 → Nat) a + S512x1.size a ≤ S512x512.size a
  inb_S512x512_S1x512_128_0 : ∀ a, (![128, 0] : Fin 2 → Nat) a + S1x512.size a ≤ S512x512.size a
  inb_S512x512_S512x1_0_129 : ∀ a, (![0, 129] : Fin 2 → Nat) a + S512x1.size a ≤ S512x512.size a
  inb_S512x512_S1x512_129_0 : ∀ a, (![129, 0] : Fin 2 → Nat) a + S1x512.size a ≤ S512x512.size a
  inb_S512x512_S512x1_0_130 : ∀ a, (![0, 130] : Fin 2 → Nat) a + S512x1.size a ≤ S512x512.size a
  inb_S512x512_S1x512_130_0 : ∀ a, (![130, 0] : Fin 2 → Nat) a + S1x512.size a ≤ S512x512.size a
  inb_S512x512_S512x1_0_131 : ∀ a, (![0, 131] : Fin 2 → Nat) a + S512x1.size a ≤ S512x512.size a
  inb_S512x512_S1x512_131_0 : ∀ a, (![131, 0] : Fin 2 → Nat) a + S1x512.size a ≤ S512x512.size a
  inb_S512x512_S512x1_0_132 : ∀ a, (![0, 132] : Fin 2 → Nat) a + S512x1.size a ≤ S512x512.size a
  inb_S512x512_S1x512_132_0 : ∀ a, (![132, 0] : Fin 2 → Nat) a + S1x512.size a ≤ S512x512.size a
  inb_S512x512_S512x1_0_133 : ∀ a, (![0, 133] : Fin 2 → Nat) a + S512x1.size a ≤ S512x512.size a
  inb_S512x512_S1x512_133_0 : ∀ a, (![133, 0] : Fin 2 → Nat) a + S1x512.size a ≤ S512x512.size a
  inb_S512x512_S512x1_0_134 : ∀ a, (![0, 134] : Fin 2 → Nat) a + S512x1.size a ≤ S512x512.size a
  inb_S512x512_S1x512_134_0 : ∀ a, (![134, 0] : Fin 2 → Nat) a + S1x512.size a ≤ S512x512.size a
  inb_S512x512_S512x1_0_135 : ∀ a, (![0, 135] : Fin 2 → Nat) a + S512x1.size a ≤ S512x512.size a
  inb_S512x512_S1x512_135_0 : ∀ a, (![135, 0] : Fin 2 → Nat) a + S1x512.size a ≤ S512x512.size a
  inb_S512x512_S512x1_0_136 : ∀ a, (![0, 136] : Fin 2 → Nat) a + S512x1.size a ≤ S512x512.size a
  inb_S512x512_S1x512_136_0 : ∀ a, (![136, 0] : Fin 2 → Nat) a + S1x512.size a ≤ S512x512.size a
  inb_S512x512_S512x1_0_137 : ∀ a, (![0, 137] : Fin 2 → Nat) a + S512x1.size a ≤ S512x512.size a
  inb_S512x512_S1x512_137_0 : ∀ a, (![137, 0] : Fin 2 → Nat) a + S1x512.size a ≤ S512x512.size a
  inb_S512x512_S512x1_0_138 : ∀ a, (![0, 138] : Fin 2 → Nat) a + S512x1.size a ≤ S512x512.size a
  inb_S512x512_S1x512_138_0 : ∀ a, (![138, 0] : Fin 2 → Nat) a + S1x512.size a ≤ S512x512.size a
  inb_S512x512_S512x1_0_139 : ∀ a, (![0, 139] : Fin 2 → Nat) a + S512x1.size a ≤ S512x512.size a
  inb_S512x512_S1x512_139_0 : ∀ a, (![139, 0] : Fin 2 → Nat) a + S1x512.size a ≤ S512x512.size a
  inb_S512x512_S512x1_0_140 : ∀ a, (![0, 140] : Fin 2 → Nat) a + S512x1.size a ≤ S512x512.size a
  inb_S512x512_S1x512_140_0 : ∀ a, (![140, 0] : Fin 2 → Nat) a + S1x512.size a ≤ S512x512.size a
  inb_S512x512_S512x1_0_141 : ∀ a, (![0, 141] : Fin 2 → Nat) a + S512x1.size a ≤ S512x512.size a
  inb_S512x512_S1x512_141_0 : ∀ a, (![141, 0] : Fin 2 → Nat) a + S1x512.size a ≤ S512x512.size a
  inb_S512x512_S512x1_0_142 : ∀ a, (![0, 142] : Fin 2 → Nat) a + S512x1.size a ≤ S512x512.size a
  inb_S512x512_S1x512_142_0 : ∀ a, (![142, 0] : Fin 2 → Nat) a + S1x512.size a ≤ S512x512.size a
  inb_S512x512_S512x1_0_143 : ∀ a, (![0, 143] : Fin 2 → Nat) a + S512x1.size a ≤ S512x512.size a
  inb_S512x512_S1x512_143_0 : ∀ a, (![143, 0] : Fin 2 → Nat) a + S1x512.size a ≤ S512x512.size a
  inb_S512x512_S512x1_0_144 : ∀ a, (![0, 144] : Fin 2 → Nat) a + S512x1.size a ≤ S512x512.size a
  inb_S512x512_S1x512_144_0 : ∀ a, (![144, 0] : Fin 2 → Nat) a + S1x512.size a ≤ S512x512.size a
  inb_S512x512_S512x1_0_145 : ∀ a, (![0, 145] : Fin 2 → Nat) a + S512x1.size a ≤ S512x512.size a
  inb_S512x512_S1x512_145_0 : ∀ a, (![145, 0] : Fin 2 → Nat) a + S1x512.size a ≤ S512x512.size a
  inb_S512x512_S512x1_0_146 : ∀ a, (![0, 146] : Fin 2 → Nat) a + S512x1.size a ≤ S512x512.size a
  inb_S512x512_S1x512_146_0 : ∀ a, (![146, 0] : Fin 2 → Nat) a + S1x512.size a ≤ S512x512.size a
  inb_S512x512_S512x1_0_147 : ∀ a, (![0, 147] : Fin 2 → Nat) a + S512x1.size a ≤ S512x512.size a
  inb_S512x512_S1x512_147_0 : ∀ a, (![147, 0] : Fin 2 → Nat) a + S1x512.size a ≤ S512x512.size a
  inb_S512x512_S512x1_0_148 : ∀ a, (![0, 148] : Fin 2 → Nat) a + S512x1.size a ≤ S512x512.size a
  inb_S512x512_S1x512_148_0 : ∀ a, (![148, 0] : Fin 2 → Nat) a + S1x512.size a ≤ S512x512.size a
  inb_S512x512_S512x1_0_149 : ∀ a, (![0, 149] : Fin 2 → Nat) a + S512x1.size a ≤ S512x512.size a
  inb_S512x512_S1x512_149_0 : ∀ a, (![149, 0] : Fin 2 → Nat) a + S1x512.size a ≤ S512x512.size a
  inb_S512x512_S512x1_0_150 : ∀ a, (![0, 150] : Fin 2 → Nat) a + S512x1.size a ≤ S512x512.size a
  inb_S512x512_S1x512_150_0 : ∀ a, (![150, 0] : Fin 2 → Nat) a + S1x512.size a ≤ S512x512.size a
  inb_S512x512_S512x1_0_151 : ∀ a, (![0, 151] : Fin 2 → Nat) a + S512x1.size a ≤ S512x512.size a
  inb_S512x512_S1x512_151_0 : ∀ a, (![151, 0] : Fin 2 → Nat) a + S1x512.size a ≤ S512x512.size a
  inb_S512x512_S512x1_0_152 : ∀ a, (![0, 152] : Fin 2 → Nat) a + S512x1.size a ≤ S512x512.size a
  inb_S512x512_S1x512_152_0 : ∀ a, (![152, 0] : Fin 2 → Nat) a + S1x512.size a ≤ S512x512.size a
  inb_S512x512_S512x1_0_153 : ∀ a, (![0, 153] : Fin 2 → Nat) a + S512x1.size a ≤ S512x512.size a
  inb_S512x512_S1x512_153_0 : ∀ a, (![153, 0] : Fin 2 → Nat) a + S1x512.size a ≤ S512x512.size a
  inb_S512x512_S512x1_0_154 : ∀ a, (![0, 154] : Fin 2 → Nat) a + S512x1.size a ≤ S512x512.size a
  inb_S512x512_S1x512_154_0 : ∀ a, (![154, 0] : Fin 2 → Nat) a + S1x512.size a ≤ S512x512.size a
  inb_S512x512_S512x1_0_155 : ∀ a, (![0, 155] : Fin 2 → Nat) a + S512x1.size a ≤ S512x512.size a
  inb_S512x512_S1x512_155_0 : ∀ a, (![155, 0] : Fin 2 → Nat) a + S1x512.size a ≤ S512x512.size a
  inb_S512x512_S512x1_0_156 : ∀ a, (![0, 156] : Fin 2 → Nat) a + S512x1.size a ≤ S512x512.size a
  inb_S512x512_S1x512_156_0 : ∀ a, (![156, 0] : Fin 2 → Nat) a + S1x512.size a ≤ S512x512.size a
  inb_S512x512_S512x1_0_157 : ∀ a, (![0, 157] : Fin 2 → Nat) a + S512x1.size a ≤ S512x512.size a
  inb_S512x512_S1x512_157_0 : ∀ a, (![157, 0] : Fin 2 → Nat) a + S1x512.size a ≤ S512x512.size a
  inb_S512x512_S512x1_0_158 : ∀ a, (![0, 158] : Fin 2 → Nat) a + S512x1.size a ≤ S512x512.size a
  inb_S512x512_S1x512_158_0 : ∀ a, (![158, 0] : Fin 2 → Nat) a + S1x512.size a ≤ S512x512.size a
  inb_S512x512_S512x1_0_159 : ∀ a, (![0, 159] : Fin 2 → Nat) a + S512x1.size a ≤ S512x512.size a
  inb_S512x512_S1x512_159_0 : ∀ a, (![159, 0] : Fin 2 → Nat) a + S1x512.size a ≤ S512x512.size a
  inb_S512x512_S512x1_0_160 : ∀ a, (![0, 160] : Fin 2 → Nat) a + S512x1.size a ≤ S512x512.size a
  inb_S512x512_S1x512_160_0 : ∀ a, (![160, 0] : Fin 2 → Nat) a + S1x512.size a ≤ S512x512.size a
  inb_S512x512_S512x1_0_161 : ∀ a, (![0, 161] : Fin 2 → Nat) a + S512x1.size a ≤ S512x512.size a
  inb_S512x512_S1x512_161_0 : ∀ a, (![161, 0] : Fin 2 → Nat) a + S1x512.size a ≤ S512x512.size a
  inb_S512x512_S512x1_0_162 : ∀ a, (![0, 162] : Fin 2 → Nat) a + S512x1.size a ≤ S512x512.size a
  inb_S512x512_S1x512_162_0 : ∀ a, (![162, 0] : Fin 2 → Nat) a + S1x512.size a ≤ S512x512.size a
  inb_S512x512_S512x1_0_163 : ∀ a, (![0, 163] : Fin 2 → Nat) a + S512x1.size a ≤ S512x512.size a
  inb_S512x512_S1x512_163_0 : ∀ a, (![163, 0] : Fin 2 → Nat) a + S1x512.size a ≤ S512x512.size a
  inb_S512x512_S512x1_0_164 : ∀ a, (![0, 164] : Fin 2 → Nat) a + S512x1.size a ≤ S512x512.size a
  inb_S512x512_S1x512_164_0 : ∀ a, (![164, 0] : Fin 2 → Nat) a + S1x512.size a ≤ S512x512.size a
  inb_S512x512_S512x1_0_165 : ∀ a, (![0, 165] : Fin 2 → Nat) a + S512x1.size a ≤ S512x512.size a
  inb_S512x512_S1x512_165_0 : ∀ a, (![165, 0] : Fin 2 → Nat) a + S1x512.size a ≤ S512x512.size a
  inb_S512x512_S512x1_0_166 : ∀ a, (![0, 166] : Fin 2 → Nat) a + S512x1.size a ≤ S512x512.size a
  inb_S512x512_S1x512_166_0 : ∀ a, (![166, 0] : Fin 2 → Nat) a + S1x512.size a ≤ S512x512.size a
  inb_S512x512_S512x1_0_167 : ∀ a, (![0, 167] : Fin 2 → Nat) a + S512x1.size a ≤ S512x512.size a
  inb_S512x512_S1x512_167_0 : ∀ a, (![167, 0] : Fin 2 → Nat) a + S1x512.size a ≤ S512x512.size a
  inb_S512x512_S512x1_0_168 : ∀ a, (![0, 168] : Fin 2 → Nat) a + S512x1.size a ≤ S512x512.size a
  inb_S512x512_S1x512_168_0 : ∀ a, (![168, 0] : Fin 2 → Nat) a + S1x512.size a ≤ S512x512.size a
  inb_S512x512_S512x1_0_169 : ∀ a, (![0, 169] : Fin 2 → Nat) a + S512x1.size a ≤ S512x512.size a
  inb_S512x512_S1x512_169_0 : ∀ a, (![169, 0] : Fin 2 → Nat) a + S1x512.size a ≤ S512x512.size a
  inb_S512x512_S512x1_0_170 : ∀ a, (![0, 170] : Fin 2 → Nat) a + S512x1.size a ≤ S512x512.size a
  inb_S512x512_S1x512_170_0 : ∀ a, (![170, 0] : Fin 2 → Nat) a + S1x512.size a ≤ S512x512.size a
  inb_S512x512_S512x1_0_171 : ∀ a, (![0, 171] : Fin 2 → Nat) a + S512x1.size a ≤ S512x512.size a
  inb_S512x512_S1x512_171_0 : ∀ a, (![171, 0] : Fin 2 → Nat) a + S1x512.size a ≤ S512x512.size a
  inb_S512x512_S512x1_0_172 : ∀ a, (![0, 172] : Fin 2 → Nat) a + S512x1.size a ≤ S512x512.size a
  inb_S512x512_S1x512_172_0 : ∀ a, (![172, 0] : Fin 2 → Nat) a + S1x512.size a ≤ S512x512.size a
  inb_S512x512_S512x1_0_173 : ∀ a, (![0, 173] : Fin 2 → Nat) a + S512x1.size a ≤ S512x512.size a
  inb_S512x512_S1x512_173_0 : ∀ a, (![173, 0] : Fin 2 → Nat) a + S1x512.size a ≤ S512x512.size a
  inb_S512x512_S512x1_0_174 : ∀ a, (![0, 174] : Fin 2 → Nat) a + S512x1.size a ≤ S512x512.size a
  inb_S512x512_S1x512_174_0 : ∀ a, (![174, 0] : Fin 2 → Nat) a + S1x512.size a ≤ S512x512.size a
  inb_S512x512_S512x1_0_175 : ∀ a, (![0, 175] : Fin 2 → Nat) a + S512x1.size a ≤ S512x512.size a
  inb_S512x512_S1x512_175_0 : ∀ a, (![175, 0] : Fin 2 → Nat) a + S1x512.size a ≤ S512x512.size a
  inb_S512x512_S512x1_0_176 : ∀ a, (![0, 176] : Fin 2 → Nat) a + S512x1.size a ≤ S512x512.size a
  inb_S512x512_S1x512_176_0 : ∀ a, (![176, 0] : Fin 2 → Nat) a + S1x512.size a ≤ S512x512.size a
  inb_S512x512_S512x1_0_177 : ∀ a, (![0, 177] : Fin 2 → Nat) a + S512x1.size a ≤ S512x512.size a
  inb_S512x512_S1x512_177_0 : ∀ a, (![177, 0] : Fin 2 → Nat) a + S1x512.size a ≤ S512x512.size a
  inb_S512x512_S512x1_0_178 : ∀ a, (![0, 178] : Fin 2 → Nat) a + S512x1.size a ≤ S512x512.size a
  inb_S512x512_S1x512_178_0 : ∀ a, (![178, 0] : Fin 2 → Nat) a + S1x512.size a ≤ S512x512.size a
  inb_S512x512_S512x1_0_179 : ∀ a, (![0, 179] : Fin 2 → Nat) a + S512x1.size a ≤ S512x512.size a
  inb_S512x512_S1x512_179_0 : ∀ a, (![179, 0] : Fin 2 → Nat) a + S1x512.size a ≤ S512x512.size a
  inb_S512x512_S512x1_0_180 : ∀ a, (![0, 180] : Fin 2 → Nat) a + S512x1.size a ≤ S512x512.size a
  inb_S512x512_S1x512_180_0 : ∀ a, (![180, 0] : Fin 2 → Nat) a + S1x512.size a ≤ S512x512.size a
  inb_S512x512_S512x1_0_181 : ∀ a, (![0, 181] : Fin 2 → Nat) a + S512x1.size a ≤ S512x512.size a
  inb_S512x512_S1x512_181_0 : ∀ a, (![181, 0] : Fin 2 → Nat) a + S1x512.size a ≤ S512x512.size a
  inb_S512x512_S512x1_0_182 : ∀ a, (![0, 182] : Fin 2 → Nat) a + S512x1.size a ≤ S512x512.size a
  inb_S512x512_S1x512_182_0 : ∀ a, (![182, 0] : Fin 2 → Nat) a + S1x512.size a ≤ S512x512.size a
  inb_S512x512_S512x1_0_183 : ∀ a, (![0, 183] : Fin 2 → Nat) a + S512x1.size a ≤ S512x512.size a
  inb_S512x512_S1x512_183_0 : ∀ a, (![183, 0] : Fin 2 → Nat) a + S1x512.size a ≤ S512x512.size a
  inb_S512x512_S512x1_0_184 : ∀ a, (![0, 184] : Fin 2 → Nat) a + S512x1.size a ≤ S512x512.size a
  inb_S512x512_S1x512_184_0 : ∀ a, (![184, 0] : Fin 2 → Nat) a + S1x512.size a ≤ S512x512.size a
  inb_S512x512_S512x1_0_185 : ∀ a, (![0, 185] : Fin 2 → Nat) a + S512x1.size a ≤ S512x512.size a
  inb_S512x512_S1x512_185_0 : ∀ a, (![185, 0] : Fin 2 → Nat) a + S1x512.size a ≤ S512x512.size a
  inb_S512x512_S512x1_0_186 : ∀ a, (![0, 186] : Fin 2 → Nat) a + S512x1.size a ≤ S512x512.size a
  inb_S512x512_S1x512_186_0 : ∀ a, (![186, 0] : Fin 2 → Nat) a + S1x512.size a ≤ S512x512.size a
  inb_S512x512_S512x1_0_187 : ∀ a, (![0, 187] : Fin 2 → Nat) a + S512x1.size a ≤ S512x512.size a
  inb_S512x512_S1x512_187_0 : ∀ a, (![187, 0] : Fin 2 → Nat) a + S1x512.size a ≤ S512x512.size a
  inb_S512x512_S512x1_0_188 : ∀ a, (![0, 188] : Fin 2 → Nat) a + S512x1.size a ≤ S512x512.size a
  inb_S512x512_S1x512_188_0 : ∀ a, (![188, 0] : Fin 2 → Nat) a + S1x512.size a ≤ S512x512.size a
  inb_S512x512_S512x1_0_189 : ∀ a, (![0, 189] : Fin 2 → Nat) a + S512x1.size a ≤ S512x512.size a
  inb_S512x512_S1x512_189_0 : ∀ a, (![189, 0] : Fin 2 → Nat) a + S1x512.size a ≤ S512x512.size a
  inb_S512x512_S512x1_0_190 : ∀ a, (![0, 190] : Fin 2 → Nat) a + S512x1.size a ≤ S512x512.size a
  inb_S512x512_S1x512_190_0 : ∀ a, (![190, 0] : Fin 2 → Nat) a + S1x512.size a ≤ S512x512.size a
  inb_S512x512_S512x1_0_191 : ∀ a, (![0, 191] : Fin 2 → Nat) a + S512x1.size a ≤ S512x512.size a
  inb_S512x512_S1x512_191_0 : ∀ a, (![191, 0] : Fin 2 → Nat) a + S1x512.size a ≤ S512x512.size a
  inb_S512x512_S512x1_0_192 : ∀ a, (![0, 192] : Fin 2 → Nat) a + S512x1.size a ≤ S512x512.size a
  inb_S512x512_S1x512_192_0 : ∀ a, (![192, 0] : Fin 2 → Nat) a + S1x512.size a ≤ S512x512.size a
  inb_S512x512_S512x1_0_193 : ∀ a, (![0, 193] : Fin 2 → Nat) a + S512x1.size a ≤ S512x512.size a
  inb_S512x512_S1x512_193_0 : ∀ a, (![193, 0] : Fin 2 → Nat) a + S1x512.size a ≤ S512x512.size a
  inb_S512x512_S512x1_0_194 : ∀ a, (![0, 194] : Fin 2 → Nat) a + S512x1.size a ≤ S512x512.size a
  inb_S512x512_S1x512_194_0 : ∀ a, (![194, 0] : Fin 2 → Nat) a + S1x512.size a ≤ S512x512.size a
  inb_S512x512_S512x1_0_195 : ∀ a, (![0, 195] : Fin 2 → Nat) a + S512x1.size a ≤ S512x512.size a
  inb_S512x512_S1x512_195_0 : ∀ a, (![195, 0] : Fin 2 → Nat) a + S1x512.size a ≤ S512x512.size a
  inb_S512x512_S512x1_0_196 : ∀ a, (![0, 196] : Fin 2 → Nat) a + S512x1.size a ≤ S512x512.size a
  inb_S512x512_S1x512_196_0 : ∀ a, (![196, 0] : Fin 2 → Nat) a + S1x512.size a ≤ S512x512.size a
  inb_S512x512_S512x1_0_197 : ∀ a, (![0, 197] : Fin 2 → Nat) a + S512x1.size a ≤ S512x512.size a
  inb_S512x512_S1x512_197_0 : ∀ a, (![197, 0] : Fin 2 → Nat) a + S1x512.size a ≤ S512x512.size a
  inb_S512x512_S512x1_0_198 : ∀ a, (![0, 198] : Fin 2 → Nat) a + S512x1.size a ≤ S512x512.size a
  inb_S512x512_S1x512_198_0 : ∀ a, (![198, 0] : Fin 2 → Nat) a + S1x512.size a ≤ S512x512.size a
  inb_S512x512_S512x1_0_199 : ∀ a, (![0, 199] : Fin 2 → Nat) a + S512x1.size a ≤ S512x512.size a
  inb_S512x512_S1x512_199_0 : ∀ a, (![199, 0] : Fin 2 → Nat) a + S1x512.size a ≤ S512x512.size a
  inb_S512x512_S512x1_0_200 : ∀ a, (![0, 200] : Fin 2 → Nat) a + S512x1.size a ≤ S512x512.size a
  inb_S512x512_S1x512_200_0 : ∀ a, (![200, 0] : Fin 2 → Nat) a + S1x512.size a ≤ S512x512.size a
  inb_S512x512_S512x1_0_201 : ∀ a, (![0, 201] : Fin 2 → Nat) a + S512x1.size a ≤ S512x512.size a
  inb_S512x512_S1x512_201_0 : ∀ a, (![201, 0] : Fin 2 → Nat) a + S1x512.size a ≤ S512x512.size a
  inb_S512x512_S512x1_0_202 : ∀ a, (![0, 202] : Fin 2 → Nat) a + S512x1.size a ≤ S512x512.size a
  inb_S512x512_S1x512_202_0 : ∀ a, (![202, 0] : Fin 2 → Nat) a + S1x512.size a ≤ S512x512.size a
  inb_S512x512_S512x1_0_203 : ∀ a, (![0, 203] : Fin 2 → Nat) a + S512x1.size a ≤ S512x512.size a
  inb_S512x512_S1x512_203_0 : ∀ a, (![203, 0] : Fin 2 → Nat) a + S1x512.size a ≤ S512x512.size a
  inb_S512x512_S512x1_0_204 : ∀ a, (![0, 204] : Fin 2 → Nat) a + S512x1.size a ≤ S512x512.size a
  inb_S512x512_S1x512_204_0 : ∀ a, (![204, 0] : Fin 2 → Nat) a + S1x512.size a ≤ S512x512.size a
  inb_S512x512_S512x1_0_205 : ∀ a, (![0, 205] : Fin 2 → Nat) a + S512x1.size a ≤ S512x512.size a
  inb_S512x512_S1x512_205_0 : ∀ a, (![205, 0] : Fin 2 → Nat) a + S1x512.size a ≤ S512x512.size a
  inb_S512x512_S512x1_0_206 : ∀ a, (![0, 206] : Fin 2 → Nat) a + S512x1.size a ≤ S512x512.size a
  inb_S512x512_S1x512_206_0 : ∀ a, (![206, 0] : Fin 2 → Nat) a + S1x512.size a ≤ S512x512.size a
  inb_S512x512_S512x1_0_207 : ∀ a, (![0, 207] : Fin 2 → Nat) a + S512x1.size a ≤ S512x512.size a
  inb_S512x512_S1x512_207_0 : ∀ a, (![207, 0] : Fin 2 → Nat) a + S1x512.size a ≤ S512x512.size a
  inb_S512x512_S512x1_0_208 : ∀ a, (![0, 208] : Fin 2 → Nat) a + S512x1.size a ≤ S512x512.size a
  inb_S512x512_S1x512_208_0 : ∀ a, (![208, 0] : Fin 2 → Nat) a + S1x512.size a ≤ S512x512.size a
  inb_S512x512_S512x1_0_209 : ∀ a, (![0, 209] : Fin 2 → Nat) a + S512x1.size a ≤ S512x512.size a
  inb_S512x512_S1x512_209_0 : ∀ a, (![209, 0] : Fin 2 → Nat) a + S1x512.size a ≤ S512x512.size a
  inb_S512x512_S512x1_0_210 : ∀ a, (![0, 210] : Fin 2 → Nat) a + S512x1.size a ≤ S512x512.size a
  inb_S512x512_S1x512_210_0 : ∀ a, (![210, 0] : Fin 2 → Nat) a + S1x512.size a ≤ S512x512.size a
  inb_S512x512_S512x1_0_211 : ∀ a, (![0, 211] : Fin 2 → Nat) a + S512x1.size a ≤ S512x512.size a
  inb_S512x512_S1x512_211_0 : ∀ a, (![211, 0] : Fin 2 → Nat) a + S1x512.size a ≤ S512x512.size a
  inb_S512x512_S512x1_0_212 : ∀ a, (![0, 212] : Fin 2 → Nat) a + S512x1.size a ≤ S512x512.size a
  inb_S512x512_S1x512_212_0 : ∀ a, (![212, 0] : Fin 2 → Nat) a + S1x512.size a ≤ S512x512.size a
  inb_S512x512_S512x1_0_213 : ∀ a, (![0, 213] : Fin 2 → Nat) a + S512x1.size a ≤ S512x512.size a
  inb_S512x512_S1x512_213_0 : ∀ a, (![213, 0] : Fin 2 → Nat) a + S1x512.size a ≤ S512x512.size a
  inb_S512x512_S512x1_0_214 : ∀ a, (![0, 214] : Fin 2 → Nat) a + S512x1.size a ≤ S512x512.size a
  inb_S512x512_S1x512_214_0 : ∀ a, (![214, 0] : Fin 2 → Nat) a + S1x512.size a ≤ S512x512.size a
  inb_S512x512_S512x1_0_215 : ∀ a, (![0, 215] : Fin 2 → Nat) a + S512x1.size a ≤ S512x512.size a
  inb_S512x512_S1x512_215_0 : ∀ a, (![215, 0] : Fin 2 → Nat) a + S1x512.size a ≤ S512x512.size a
  inb_S512x512_S512x1_0_216 : ∀ a, (![0, 216] : Fin 2 → Nat) a + S512x1.size a ≤ S512x512.size a
  inb_S512x512_S1x512_216_0 : ∀ a, (![216, 0] : Fin 2 → Nat) a + S1x512.size a ≤ S512x512.size a
  inb_S512x512_S512x1_0_217 : ∀ a, (![0, 217] : Fin 2 → Nat) a + S512x1.size a ≤ S512x512.size a
  inb_S512x512_S1x512_217_0 : ∀ a, (![217, 0] : Fin 2 → Nat) a + S1x512.size a ≤ S512x512.size a
  inb_S512x512_S512x1_0_218 : ∀ a, (![0, 218] : Fin 2 → Nat) a + S512x1.size a ≤ S512x512.size a
  inb_S512x512_S1x512_218_0 : ∀ a, (![218, 0] : Fin 2 → Nat) a + S1x512.size a ≤ S512x512.size a
  inb_S512x512_S512x1_0_219 : ∀ a, (![0, 219] : Fin 2 → Nat) a + S512x1.size a ≤ S512x512.size a
  inb_S512x512_S1x512_219_0 : ∀ a, (![219, 0] : Fin 2 → Nat) a + S1x512.size a ≤ S512x512.size a
  inb_S512x512_S512x1_0_220 : ∀ a, (![0, 220] : Fin 2 → Nat) a + S512x1.size a ≤ S512x512.size a
  inb_S512x512_S1x512_220_0 : ∀ a, (![220, 0] : Fin 2 → Nat) a + S1x512.size a ≤ S512x512.size a
  inb_S512x512_S512x1_0_221 : ∀ a, (![0, 221] : Fin 2 → Nat) a + S512x1.size a ≤ S512x512.size a
  inb_S512x512_S1x512_221_0 : ∀ a, (![221, 0] : Fin 2 → Nat) a + S1x512.size a ≤ S512x512.size a
  inb_S512x512_S512x1_0_222 : ∀ a, (![0, 222] : Fin 2 → Nat) a + S512x1.size a ≤ S512x512.size a
  inb_S512x512_S1x512_222_0 : ∀ a, (![222, 0] : Fin 2 → Nat) a + S1x512.size a ≤ S512x512.size a
  inb_S512x512_S512x1_0_223 : ∀ a, (![0, 223] : Fin 2 → Nat) a + S512x1.size a ≤ S512x512.size a
  inb_S512x512_S1x512_223_0 : ∀ a, (![223, 0] : Fin 2 → Nat) a + S1x512.size a ≤ S512x512.size a
  inb_S512x512_S512x1_0_224 : ∀ a, (![0, 224] : Fin 2 → Nat) a + S512x1.size a ≤ S512x512.size a
  inb_S512x512_S1x512_224_0 : ∀ a, (![224, 0] : Fin 2 → Nat) a + S1x512.size a ≤ S512x512.size a
  inb_S512x512_S512x1_0_225 : ∀ a, (![0, 225] : Fin 2 → Nat) a + S512x1.size a ≤ S512x512.size a
  inb_S512x512_S1x512_225_0 : ∀ a, (![225, 0] : Fin 2 → Nat) a + S1x512.size a ≤ S512x512.size a
  inb_S512x512_S512x1_0_226 : ∀ a, (![0, 226] : Fin 2 → Nat) a + S512x1.size a ≤ S512x512.size a
  inb_S512x512_S1x512_226_0 : ∀ a, (![226, 0] : Fin 2 → Nat) a + S1x512.size a ≤ S512x512.size a
  inb_S512x512_S512x1_0_227 : ∀ a, (![0, 227] : Fin 2 → Nat) a + S512x1.size a ≤ S512x512.size a
  inb_S512x512_S1x512_227_0 : ∀ a, (![227, 0] : Fin 2 → Nat) a + S1x512.size a ≤ S512x512.size a
  inb_S512x512_S512x1_0_228 : ∀ a, (![0, 228] : Fin 2 → Nat) a + S512x1.size a ≤ S512x512.size a
  inb_S512x512_S1x512_228_0 : ∀ a, (![228, 0] : Fin 2 → Nat) a + S1x512.size a ≤ S512x512.size a
  inb_S512x512_S512x1_0_229 : ∀ a, (![0, 229] : Fin 2 → Nat) a + S512x1.size a ≤ S512x512.size a
  inb_S512x512_S1x512_229_0 : ∀ a, (![229, 0] : Fin 2 → Nat) a + S1x512.size a ≤ S512x512.size a
  inb_S512x512_S512x1_0_230 : ∀ a, (![0, 230] : Fin 2 → Nat) a + S512x1.size a ≤ S512x512.size a
  inb_S512x512_S1x512_230_0 : ∀ a, (![230, 0] : Fin 2 → Nat) a + S1x512.size a ≤ S512x512.size a
  inb_S512x512_S512x1_0_231 : ∀ a, (![0, 231] : Fin 2 → Nat) a + S512x1.size a ≤ S512x512.size a
  inb_S512x512_S1x512_231_0 : ∀ a, (![231, 0] : Fin 2 → Nat) a + S1x512.size a ≤ S512x512.size a
  inb_S512x512_S512x1_0_232 : ∀ a, (![0, 232] : Fin 2 → Nat) a + S512x1.size a ≤ S512x512.size a
  inb_S512x512_S1x512_232_0 : ∀ a, (![232, 0] : Fin 2 → Nat) a + S1x512.size a ≤ S512x512.size a
  inb_S512x512_S512x1_0_233 : ∀ a, (![0, 233] : Fin 2 → Nat) a + S512x1.size a ≤ S512x512.size a
  inb_S512x512_S1x512_233_0 : ∀ a, (![233, 0] : Fin 2 → Nat) a + S1x512.size a ≤ S512x512.size a
  inb_S512x512_S512x1_0_234 : ∀ a, (![0, 234] : Fin 2 → Nat) a + S512x1.size a ≤ S512x512.size a
  inb_S512x512_S1x512_234_0 : ∀ a, (![234, 0] : Fin 2 → Nat) a + S1x512.size a ≤ S512x512.size a
  inb_S512x512_S512x1_0_235 : ∀ a, (![0, 235] : Fin 2 → Nat) a + S512x1.size a ≤ S512x512.size a
  inb_S512x512_S1x512_235_0 : ∀ a, (![235, 0] : Fin 2 → Nat) a + S1x512.size a ≤ S512x512.size a
  inb_S512x512_S512x1_0_236 : ∀ a, (![0, 236] : Fin 2 → Nat) a + S512x1.size a ≤ S512x512.size a
  inb_S512x512_S1x512_236_0 : ∀ a, (![236, 0] : Fin 2 → Nat) a + S1x512.size a ≤ S512x512.size a
  inb_S512x512_S512x1_0_237 : ∀ a, (![0, 237] : Fin 2 → Nat) a + S512x1.size a ≤ S512x512.size a
  inb_S512x512_S1x512_237_0 : ∀ a, (![237, 0] : Fin 2 → Nat) a + S1x512.size a ≤ S512x512.size a
  inb_S512x512_S512x1_0_238 : ∀ a, (![0, 238] : Fin 2 → Nat) a + S512x1.size a ≤ S512x512.size a
  inb_S512x512_S1x512_238_0 : ∀ a, (![238, 0] : Fin 2 → Nat) a + S1x512.size a ≤ S512x512.size a
  inb_S512x512_S512x1_0_239 : ∀ a, (![0, 239] : Fin 2 → Nat) a + S512x1.size a ≤ S512x512.size a
  inb_S512x512_S1x512_239_0 : ∀ a, (![239, 0] : Fin 2 → Nat) a + S1x512.size a ≤ S512x512.size a
  inb_S512x512_S512x1_0_240 : ∀ a, (![0, 240] : Fin 2 → Nat) a + S512x1.size a ≤ S512x512.size a
  inb_S512x512_S1x512_240_0 : ∀ a, (![240, 0] : Fin 2 → Nat) a + S1x512.size a ≤ S512x512.size a
  inb_S512x512_S512x1_0_241 : ∀ a, (![0, 241] : Fin 2 → Nat) a + S512x1.size a ≤ S512x512.size a
  inb_S512x512_S1x512_241_0 : ∀ a, (![241, 0] : Fin 2 → Nat) a + S1x512.size a ≤ S512x512.size a
  inb_S512x512_S512x1_0_242 : ∀ a, (![0, 242] : Fin 2 → Nat) a + S512x1.size a ≤ S512x512.size a
  inb_S512x512_S1x512_242_0 : ∀ a, (![242, 0] : Fin 2 → Nat) a + S1x512.size a ≤ S512x512.size a
  inb_S512x512_S512x1_0_243 : ∀ a, (![0, 243] : Fin 2 → Nat) a + S512x1.size a ≤ S512x512.size a
  inb_S512x512_S1x512_243_0 : ∀ a, (![243, 0] : Fin 2 → Nat) a + S1x512.size a ≤ S512x512.size a
  inb_S512x512_S512x1_0_244 : ∀ a, (![0, 244] : Fin 2 → Nat) a + S512x1.size a ≤ S512x512.size a
  inb_S512x512_S1x512_244_0 : ∀ a, (![244, 0] : Fin 2 → Nat) a + S1x512.size a ≤ S512x512.size a
  inb_S512x512_S512x1_0_245 : ∀ a, (![0, 245] : Fin 2 → Nat) a + S512x1.size a ≤ S512x512.size a
  inb_S512x512_S1x512_245_0 : ∀ a, (![245, 0] : Fin 2 → Nat) a + S1x512.size a ≤ S512x512.size a
  inb_S512x512_S512x1_0_246 : ∀ a, (![0, 246] : Fin 2 → Nat) a + S512x1.size a ≤ S512x512.size a
  inb_S512x512_S1x512_246_0 : ∀ a, (![246, 0] : Fin 2 → Nat) a + S1x512.size a ≤ S512x512.size a
  inb_S512x512_S512x1_0_247 : ∀ a, (![0, 247] : Fin 2 → Nat) a + S512x1.size a ≤ S512x512.size a
  inb_S512x512_S1x512_247_0 : ∀ a, (![247, 0] : Fin 2 → Nat) a + S1x512.size a ≤ S512x512.size a
  inb_S512x512_S512x1_0_248 : ∀ a, (![0, 248] : Fin 2 → Nat) a + S512x1.size a ≤ S512x512.size a
  inb_S512x512_S1x512_248_0 : ∀ a, (![248, 0] : Fin 2 → Nat) a + S1x512.size a ≤ S512x512.size a
  inb_S512x512_S512x1_0_249 : ∀ a, (![0, 249] : Fin 2 → Nat) a + S512x1.size a ≤ S512x512.size a
  inb_S512x512_S1x512_249_0 : ∀ a, (![249, 0] : Fin 2 → Nat) a + S1x512.size a ≤ S512x512.size a
  inb_S512x512_S512x1_0_250 : ∀ a, (![0, 250] : Fin 2 → Nat) a + S512x1.size a ≤ S512x512.size a
  inb_S512x512_S1x512_250_0 : ∀ a, (![250, 0] : Fin 2 → Nat) a + S1x512.size a ≤ S512x512.size a
  inb_S512x512_S512x1_0_251 : ∀ a, (![0, 251] : Fin 2 → Nat) a + S512x1.size a ≤ S512x512.size a
  inb_S512x512_S1x512_251_0 : ∀ a, (![251, 0] : Fin 2 → Nat) a + S1x512.size a ≤ S512x512.size a
  inb_S512x512_S512x1_0_252 : ∀ a, (![0, 252] : Fin 2 → Nat) a + S512x1.size a ≤ S512x512.size a
  inb_S512x512_S1x512_252_0 : ∀ a, (![252, 0] : Fin 2 → Nat) a + S1x512.size a ≤ S512x512.size a
  inb_S512x512_S512x1_0_253 : ∀ a, (![0, 253] : Fin 2 → Nat) a + S512x1.size a ≤ S512x512.size a
  inb_S512x512_S1x512_253_0 : ∀ a, (![253, 0] : Fin 2 → Nat) a + S1x512.size a ≤ S512x512.size a
  inb_S512x512_S512x1_0_254 : ∀ a, (![0, 254] : Fin 2 → Nat) a + S512x1.size a ≤ S512x512.size a
  inb_S512x512_S1x512_254_0 : ∀ a, (![254, 0] : Fin 2 → Nat) a + S1x512.size a ≤ S512x512.size a
  inb_S512x512_S512x1_0_255 : ∀ a, (![0, 255] : Fin 2 → Nat) a + S512x1.size a ≤ S512x512.size a
  inb_S512x512_S1x512_255_0 : ∀ a, (![255, 0] : Fin 2 → Nat) a + S1x512.size a ≤ S512x512.size a
  inb_S512x512_S512x1_0_256 : ∀ a, (![0, 256] : Fin 2 → Nat) a + S512x1.size a ≤ S512x512.size a
  inb_S512x512_S1x512_256_0 : ∀ a, (![256, 0] : Fin 2 → Nat) a + S1x512.size a ≤ S512x512.size a
  inb_S512x512_S512x1_0_257 : ∀ a, (![0, 257] : Fin 2 → Nat) a + S512x1.size a ≤ S512x512.size a
  inb_S512x512_S1x512_257_0 : ∀ a, (![257, 0] : Fin 2 → Nat) a + S1x512.size a ≤ S512x512.size a
  inb_S512x512_S512x1_0_258 : ∀ a, (![0, 258] : Fin 2 → Nat) a + S512x1.size a ≤ S512x512.size a
  inb_S512x512_S1x512_258_0 : ∀ a, (![258, 0] : Fin 2 → Nat) a + S1x512.size a ≤ S512x512.size a
  inb_S512x512_S512x1_0_259 : ∀ a, (![0, 259] : Fin 2 → Nat) a + S512x1.size a ≤ S512x512.size a
  inb_S512x512_S1x512_259_0 : ∀ a, (![259, 0] : Fin 2 → Nat) a + S1x512.size a ≤ S512x512.size a
  inb_S512x512_S512x1_0_260 : ∀ a, (![0, 260] : Fin 2 → Nat) a + S512x1.size a ≤ S512x512.size a
  inb_S512x512_S1x512_260_0 : ∀ a, (![260, 0] : Fin 2 → Nat) a + S1x512.size a ≤ S512x512.size a
  inb_S512x512_S512x1_0_261 : ∀ a, (![0, 261] : Fin 2 → Nat) a + S512x1.size a ≤ S512x512.size a
  inb_S512x512_S1x512_261_0 : ∀ a, (![261, 0] : Fin 2 → Nat) a + S1x512.size a ≤ S512x512.size a
  inb_S512x512_S512x1_0_262 : ∀ a, (![0, 262] : Fin 2 → Nat) a + S512x1.size a ≤ S512x512.size a
  inb_S512x512_S1x512_262_0 : ∀ a, (![262, 0] : Fin 2 → Nat) a + S1x512.size a ≤ S512x512.size a
  inb_S512x512_S512x1_0_263 : ∀ a, (![0, 263] : Fin 2 → Nat) a + S512x1.size a ≤ S512x512.size a
  inb_S512x512_S1x512_263_0 : ∀ a, (![263, 0] : Fin 2 → Nat) a + S1x512.size a ≤ S512x512.size a
  inb_S512x512_S512x1_0_264 : ∀ a, (![0, 264] : Fin 2 → Nat) a + S512x1.size a ≤ S512x512.size a
  inb_S512x512_S1x512_264_0 : ∀ a, (![264, 0] : Fin 2 → Nat) a + S1x512.size a ≤ S512x512.size a
  inb_S512x512_S512x1_0_265 : ∀ a, (![0, 265] : Fin 2 → Nat) a + S512x1.size a ≤ S512x512.size a
  inb_S512x512_S1x512_265_0 : ∀ a, (![265, 0] : Fin 2 → Nat) a + S1x512.size a ≤ S512x512.size a
  inb_S512x512_S512x1_0_266 : ∀ a, (![0, 266] : Fin 2 → Nat) a + S512x1.size a ≤ S512x512.size a
  inb_S512x512_S1x512_266_0 : ∀ a, (![266, 0] : Fin 2 → Nat) a + S1x512.size a ≤ S512x512.size a
  inb_S512x512_S512x1_0_267 : ∀ a, (![0, 267] : Fin 2 → Nat) a + S512x1.size a ≤ S512x512.size a
  inb_S512x512_S1x512_267_0 : ∀ a, (![267, 0] : Fin 2 → Nat) a + S1x512.size a ≤ S512x512.size a
  inb_S512x512_S512x1_0_268 : ∀ a, (![0, 268] : Fin 2 → Nat) a + S512x1.size a ≤ S512x512.size a
  inb_S512x512_S1x512_268_0 : ∀ a, (![268, 0] : Fin 2 → Nat) a + S1x512.size a ≤ S512x512.size a
  inb_S512x512_S512x1_0_269 : ∀ a, (![0, 269] : Fin 2 → Nat) a + S512x1.size a ≤ S512x512.size a
  inb_S512x512_S1x512_269_0 : ∀ a, (![269, 0] : Fin 2 → Nat) a + S1x512.size a ≤ S512x512.size a
  inb_S512x512_S512x1_0_270 : ∀ a, (![0, 270] : Fin 2 → Nat) a + S512x1.size a ≤ S512x512.size a
  inb_S512x512_S1x512_270_0 : ∀ a, (![270, 0] : Fin 2 → Nat) a + S1x512.size a ≤ S512x512.size a
  inb_S512x512_S512x1_0_271 : ∀ a, (![0, 271] : Fin 2 → Nat) a + S512x1.size a ≤ S512x512.size a
  inb_S512x512_S1x512_271_0 : ∀ a, (![271, 0] : Fin 2 → Nat) a + S1x512.size a ≤ S512x512.size a
  inb_S512x512_S512x1_0_272 : ∀ a, (![0, 272] : Fin 2 → Nat) a + S512x1.size a ≤ S512x512.size a
  inb_S512x512_S1x512_272_0 : ∀ a, (![272, 0] : Fin 2 → Nat) a + S1x512.size a ≤ S512x512.size a
  inb_S512x512_S512x1_0_273 : ∀ a, (![0, 273] : Fin 2 → Nat) a + S512x1.size a ≤ S512x512.size a
  inb_S512x512_S1x512_273_0 : ∀ a, (![273, 0] : Fin 2 → Nat) a + S1x512.size a ≤ S512x512.size a
  inb_S512x512_S512x1_0_274 : ∀ a, (![0, 274] : Fin 2 → Nat) a + S512x1.size a ≤ S512x512.size a
  inb_S512x512_S1x512_274_0 : ∀ a, (![274, 0] : Fin 2 → Nat) a + S1x512.size a ≤ S512x512.size a
  inb_S512x512_S512x1_0_275 : ∀ a, (![0, 275] : Fin 2 → Nat) a + S512x1.size a ≤ S512x512.size a
  inb_S512x512_S1x512_275_0 : ∀ a, (![275, 0] : Fin 2 → Nat) a + S1x512.size a ≤ S512x512.size a
  inb_S512x512_S512x1_0_276 : ∀ a, (![0, 276] : Fin 2 → Nat) a + S512x1.size a ≤ S512x512.size a
  inb_S512x512_S1x512_276_0 : ∀ a, (![276, 0] : Fin 2 → Nat) a + S1x512.size a ≤ S512x512.size a
  inb_S512x512_S512x1_0_277 : ∀ a, (![0, 277] : Fin 2 → Nat) a + S512x1.size a ≤ S512x512.size a
  inb_S512x512_S1x512_277_0 : ∀ a, (![277, 0] : Fin 2 → Nat) a + S1x512.size a ≤ S512x512.size a
  inb_S512x512_S512x1_0_278 : ∀ a, (![0, 278] : Fin 2 → Nat) a + S512x1.size a ≤ S512x512.size a
  inb_S512x512_S1x512_278_0 : ∀ a, (![278, 0] : Fin 2 → Nat) a + S1x512.size a ≤ S512x512.size a
  inb_S512x512_S512x1_0_279 : ∀ a, (![0, 279] : Fin 2 → Nat) a + S512x1.size a ≤ S512x512.size a
  inb_S512x512_S1x512_279_0 : ∀ a, (![279, 0] : Fin 2 → Nat) a + S1x512.size a ≤ S512x512.size a
  inb_S512x512_S512x1_0_280 : ∀ a, (![0, 280] : Fin 2 → Nat) a + S512x1.size a ≤ S512x512.size a
  inb_S512x512_S1x512_280_0 : ∀ a, (![280, 0] : Fin 2 → Nat) a + S1x512.size a ≤ S512x512.size a
  inb_S512x512_S512x1_0_281 : ∀ a, (![0, 281] : Fin 2 → Nat) a + S512x1.size a ≤ S512x512.size a
  inb_S512x512_S1x512_281_0 : ∀ a, (![281, 0] : Fin 2 → Nat) a + S1x512.size a ≤ S512x512.size a
  inb_S512x512_S512x1_0_282 : ∀ a, (![0, 282] : Fin 2 → Nat) a + S512x1.size a ≤ S512x512.size a
  inb_S512x512_S1x512_282_0 : ∀ a, (![282, 0] : Fin 2 → Nat) a + S1x512.size a ≤ S512x512.size a
  inb_S512x512_S512x1_0_283 : ∀ a, (![0, 283] : Fin 2 → Nat) a + S512x1.size a ≤ S512x512.size a
  inb_S512x512_S1x512_283_0 : ∀ a, (![283, 0] : Fin 2 → Nat) a + S1x512.size a ≤ S512x512.size a
  inb_S512x512_S512x1_0_284 : ∀ a, (![0, 284] : Fin 2 → Nat) a + S512x1.size a ≤ S512x512.size a
  inb_S512x512_S1x512_284_0 : ∀ a, (![284, 0] : Fin 2 → Nat) a + S1x512.size a ≤ S512x512.size a
  inb_S512x512_S512x1_0_285 : ∀ a, (![0, 285] : Fin 2 → Nat) a + S512x1.size a ≤ S512x512.size a
  inb_S512x512_S1x512_285_0 : ∀ a, (![285, 0] : Fin 2 → Nat) a + S1x512.size a ≤ S512x512.size a
  inb_S512x512_S512x1_0_286 : ∀ a, (![0, 286] : Fin 2 → Nat) a + S512x1.size a ≤ S512x512.size a
  inb_S512x512_S1x512_286_0 : ∀ a, (![286, 0] : Fin 2 → Nat) a + S1x512.size a ≤ S512x512.size a
  inb_S512x512_S512x1_0_287 : ∀ a, (![0, 287] : Fin 2 → Nat) a + S512x1.size a ≤ S512x512.size a
  inb_S512x512_S1x512_287_0 : ∀ a, (![287, 0] : Fin 2 → Nat) a + S1x512.size a ≤ S512x512.size a
  inb_S512x512_S512x1_0_288 : ∀ a, (![0, 288] : Fin 2 → Nat) a + S512x1.size a ≤ S512x512.size a
  inb_S512x512_S1x512_288_0 : ∀ a, (![288, 0] : Fin 2 → Nat) a + S1x512.size a ≤ S512x512.size a
  inb_S512x512_S512x1_0_289 : ∀ a, (![0, 289] : Fin 2 → Nat) a + S512x1.size a ≤ S512x512.size a
  inb_S512x512_S1x512_289_0 : ∀ a, (![289, 0] : Fin 2 → Nat) a + S1x512.size a ≤ S512x512.size a
  inb_S512x512_S512x1_0_290 : ∀ a, (![0, 290] : Fin 2 → Nat) a + S512x1.size a ≤ S512x512.size a
  inb_S512x512_S1x512_290_0 : ∀ a, (![290, 0] : Fin 2 → Nat) a + S1x512.size a ≤ S512x512.size a
  inb_S512x512_S512x1_0_291 : ∀ a, (![0, 291] : Fin 2 → Nat) a + S512x1.size a ≤ S512x512.size a
  inb_S512x512_S1x512_291_0 : ∀ a, (![291, 0] : Fin 2 → Nat) a + S1x512.size a ≤ S512x512.size a
  inb_S512x512_S512x1_0_292 : ∀ a, (![0, 292] : Fin 2 → Nat) a + S512x1.size a ≤ S512x512.size a
  inb_S512x512_S1x512_292_0 : ∀ a, (![292, 0] : Fin 2 → Nat) a + S1x512.size a ≤ S512x512.size a
  inb_S512x512_S512x1_0_293 : ∀ a, (![0, 293] : Fin 2 → Nat) a + S512x1.size a ≤ S512x512.size a
  inb_S512x512_S1x512_293_0 : ∀ a, (![293, 0] : Fin 2 → Nat) a + S1x512.size a ≤ S512x512.size a
  inb_S512x512_S512x1_0_294 : ∀ a, (![0, 294] : Fin 2 → Nat) a + S512x1.size a ≤ S512x512.size a
  inb_S512x512_S1x512_294_0 : ∀ a, (![294, 0] : Fin 2 → Nat) a + S1x512.size a ≤ S512x512.size a
  inb_S512x512_S512x1_0_295 : ∀ a, (![0, 295] : Fin 2 → Nat) a + S512x1.size a ≤ S512x512.size a
  inb_S512x512_S1x512_295_0 : ∀ a, (![295, 0] : Fin 2 → Nat) a + S1x512.size a ≤ S512x512.size a
  inb_S512x512_S512x1_0_296 : ∀ a, (![0, 296] : Fin 2 → Nat) a + S512x1.size a ≤ S512x512.size a
  inb_S512x512_S1x512_296_0 : ∀ a, (![296, 0] : Fin 2 → Nat) a + S1x512.size a ≤ S512x512.size a
  inb_S512x512_S512x1_0_297 : ∀ a, (![0, 297] : Fin 2 → Nat) a + S512x1.size a ≤ S512x512.size a
  inb_S512x512_S1x512_297_0 : ∀ a, (![297, 0] : Fin 2 → Nat) a + S1x512.size a ≤ S512x512.size a
  inb_S512x512_S512x1_0_298 : ∀ a, (![0, 298] : Fin 2 → Nat) a + S512x1.size a ≤ S512x512.size a
  inb_S512x512_S1x512_298_0 : ∀ a, (![298, 0] : Fin 2 → Nat) a + S1x512.size a ≤ S512x512.size a
  inb_S512x512_S512x1_0_299 : ∀ a, (![0, 299] : Fin 2 → Nat) a + S512x1.size a ≤ S512x512.size a
  inb_S512x512_S1x512_299_0 : ∀ a, (![299, 0] : Fin 2 → Nat) a + S1x512.size a ≤ S512x512.size a
  inb_S512x512_S512x1_0_300 : ∀ a, (![0, 300] : Fin 2 → Nat) a + S512x1.size a ≤ S512x512.size a
  inb_S512x512_S1x512_300_0 : ∀ a, (![300, 0] : Fin 2 → Nat) a + S1x512.size a ≤ S512x512.size a
  inb_S512x512_S512x1_0_301 : ∀ a, (![0, 301] : Fin 2 → Nat) a + S512x1.size a ≤ S512x512.size a
  inb_S512x512_S1x512_301_0 : ∀ a, (![301, 0] : Fin 2 → Nat) a + S1x512.size a ≤ S512x512.size a
  inb_S512x512_S512x1_0_302 : ∀ a, (![0, 302] : Fin 2 → Nat) a + S512x1.size a ≤ S512x512.size a
  inb_S512x512_S1x512_302_0 : ∀ a, (![302, 0] : Fin 2 → Nat) a + S1x512.size a ≤ S512x512.size a
  inb_S512x512_S512x1_0_303 : ∀ a, (![0, 303] : Fin 2 → Nat) a + S512x1.size a ≤ S512x512.size a
  inb_S512x512_S1x512_303_0 : ∀ a, (![303, 0] : Fin 2 → Nat) a + S1x512.size a ≤ S512x512.size a
  inb_S512x512_S512x1_0_304 : ∀ a, (![0, 304] : Fin 2 → Nat) a + S512x1.size a ≤ S512x512.size a
  inb_S512x512_S1x512_304_0 : ∀ a, (![304, 0] : Fin 2 → Nat) a + S1x512.size a ≤ S512x512.size a
  inb_S512x512_S512x1_0_305 : ∀ a, (![0, 305] : Fin 2 → Nat) a + S512x1.size a ≤ S512x512.size a
  inb_S512x512_S1x512_305_0 : ∀ a, (![305, 0] : Fin 2 → Nat) a + S1x512.size a ≤ S512x512.size a
  inb_S512x512_S512x1_0_306 : ∀ a, (![0, 306] : Fin 2 → Nat) a + S512x1.size a ≤ S512x512.size a
  inb_S512x512_S1x512_306_0 : ∀ a, (![306, 0] : Fin 2 → Nat) a + S1x512.size a ≤ S512x512.size a
  inb_S512x512_S512x1_0_307 : ∀ a, (![0, 307] : Fin 2 → Nat) a + S512x1.size a ≤ S512x512.size a
  inb_S512x512_S1x512_307_0 : ∀ a, (![307, 0] : Fin 2 → Nat) a + S1x512.size a ≤ S512x512.size a
  inb_S512x512_S512x1_0_308 : ∀ a, (![0, 308] : Fin 2 → Nat) a + S512x1.size a ≤ S512x512.size a
  inb_S512x512_S1x512_308_0 : ∀ a, (![308, 0] : Fin 2 → Nat) a + S1x512.size a ≤ S512x512.size a
  inb_S512x512_S512x1_0_309 : ∀ a, (![0, 309] : Fin 2 → Nat) a + S512x1.size a ≤ S512x512.size a
  inb_S512x512_S1x512_309_0 : ∀ a, (![309, 0] : Fin 2 → Nat) a + S1x512.size a ≤ S512x512.size a
  inb_S512x512_S512x1_0_310 : ∀ a, (![0, 310] : Fin 2 → Nat) a + S512x1.size a ≤ S512x512.size a
  inb_S512x512_S1x512_310_0 : ∀ a, (![310, 0] : Fin 2 → Nat) a + S1x512.size a ≤ S512x512.size a
  inb_S512x512_S512x1_0_311 : ∀ a, (![0, 311] : Fin 2 → Nat) a + S512x1.size a ≤ S512x512.size a
  inb_S512x512_S1x512_311_0 : ∀ a, (![311, 0] : Fin 2 → Nat) a + S1x512.size a ≤ S512x512.size a
  inb_S512x512_S512x1_0_312 : ∀ a, (![0, 312] : Fin 2 → Nat) a + S512x1.size a ≤ S512x512.size a
  inb_S512x512_S1x512_312_0 : ∀ a, (![312, 0] : Fin 2 → Nat) a + S1x512.size a ≤ S512x512.size a
  inb_S512x512_S512x1_0_313 : ∀ a, (![0, 313] : Fin 2 → Nat) a + S512x1.size a ≤ S512x512.size a
  inb_S512x512_S1x512_313_0 : ∀ a, (![313, 0] : Fin 2 → Nat) a + S1x512.size a ≤ S512x512.size a
  inb_S512x512_S512x1_0_314 : ∀ a, (![0, 314] : Fin 2 → Nat) a + S512x1.size a ≤ S512x512.size a
  inb_S512x512_S1x512_314_0 : ∀ a, (![314, 0] : Fin 2 → Nat) a + S1x512.size a ≤ S512x512.size a
  inb_S512x512_S512x1_0_315 : ∀ a, (![0, 315] : Fin 2 → Nat) a + S512x1.size a ≤ S512x512.size a
  inb_S512x512_S1x512_315_0 : ∀ a, (![315, 0] : Fin 2 → Nat) a + S1x512.size a ≤ S512x512.size a
  inb_S512x512_S512x1_0_316 : ∀ a, (![0, 316] : Fin 2 → Nat) a + S512x1.size a ≤ S512x512.size a
  inb_S512x512_S1x512_316_0 : ∀ a, (![316, 0] : Fin 2 → Nat) a + S1x512.size a ≤ S512x512.size a
  inb_S512x512_S512x1_0_317 : ∀ a, (![0, 317] : Fin 2 → Nat) a + S512x1.size a ≤ S512x512.size a
  inb_S512x512_S1x512_317_0 : ∀ a, (![317, 0] : Fin 2 → Nat) a + S1x512.size a ≤ S512x512.size a
  inb_S512x512_S512x1_0_318 : ∀ a, (![0, 318] : Fin 2 → Nat) a + S512x1.size a ≤ S512x512.size a
  inb_S512x512_S1x512_318_0 : ∀ a, (![318, 0] : Fin 2 → Nat) a + S1x512.size a ≤ S512x512.size a
  inb_S512x512_S512x1_0_319 : ∀ a, (![0, 319] : Fin 2 → Nat) a + S512x1.size a ≤ S512x512.size a
  inb_S512x512_S1x512_319_0 : ∀ a, (![319, 0] : Fin 2 → Nat) a + S1x512.size a ≤ S512x512.size a
  inb_S512x512_S512x1_0_320 : ∀ a, (![0, 320] : Fin 2 → Nat) a + S512x1.size a ≤ S512x512.size a
  inb_S512x512_S1x512_320_0 : ∀ a, (![320, 0] : Fin 2 → Nat) a + S1x512.size a ≤ S512x512.size a
  inb_S512x512_S512x1_0_321 : ∀ a, (![0, 321] : Fin 2 → Nat) a + S512x1.size a ≤ S512x512.size a
  inb_S512x512_S1x512_321_0 : ∀ a, (![321, 0] : Fin 2 → Nat) a + S1x512.size a ≤ S512x512.size a
  inb_S512x512_S512x1_0_322 : ∀ a, (![0, 322] : Fin 2 → Nat) a + S512x1.size a ≤ S512x512.size a
  inb_S512x512_S1x512_322_0 : ∀ a, (![322, 0] : Fin 2 → Nat) a + S1x512.size a ≤ S512x512.size a
  inb_S512x512_S512x1_0_323 : ∀ a, (![0, 323] : Fin 2 → Nat) a + S512x1.size a ≤ S512x512.size a
  inb_S512x512_S1x512_323_0 : ∀ a, (![323, 0] : Fin 2 → Nat) a + S1x512.size a ≤ S512x512.size a
  inb_S512x512_S512x1_0_324 : ∀ a, (![0, 324] : Fin 2 → Nat) a + S512x1.size a ≤ S512x512.size a
  inb_S512x512_S1x512_324_0 : ∀ a, (![324, 0] : Fin 2 → Nat) a + S1x512.size a ≤ S512x512.size a
  inb_S512x512_S512x1_0_325 : ∀ a, (![0, 325] : Fin 2 → Nat) a + S512x1.size a ≤ S512x512.size a
  inb_S512x512_S1x512_325_0 : ∀ a, (![325, 0] : Fin 2 → Nat) a + S1x512.size a ≤ S512x512.size a
  inb_S512x512_S512x1_0_326 : ∀ a, (![0, 326] : Fin 2 → Nat) a + S512x1.size a ≤ S512x512.size a
  inb_S512x512_S1x512_326_0 : ∀ a, (![326, 0] : Fin 2 → Nat) a + S1x512.size a ≤ S512x512.size a
  inb_S512x512_S512x1_0_327 : ∀ a, (![0, 327] : Fin 2 → Nat) a + S512x1.size a ≤ S512x512.size a
  inb_S512x512_S1x512_327_0 : ∀ a, (![327, 0] : Fin 2 → Nat) a + S1x512.size a ≤ S512x512.size a
  inb_S512x512_S512x1_0_328 : ∀ a, (![0, 328] : Fin 2 → Nat) a + S512x1.size a ≤ S512x512.size a
  inb_S512x512_S1x512_328_0 : ∀ a, (![328, 0] : Fin 2 → Nat) a + S1x512.size a ≤ S512x512.size a
  inb_S512x512_S512x1_0_329 : ∀ a, (![0, 329] : Fin 2 → Nat) a + S512x1.size a ≤ S512x512.size a
  inb_S512x512_S1x512_329_0 : ∀ a, (![329, 0] : Fin 2 → Nat) a + S1x512.size a ≤ S512x512.size a
  inb_S512x512_S512x1_0_330 : ∀ a, (![0, 330] : Fin 2 → Nat) a + S512x1.size a ≤ S512x512.size a
  inb_S512x512_S1x512_330_0 : ∀ a, (![330, 0] : Fin 2 → Nat) a + S1x512.size a ≤ S512x512.size a
  inb_S512x512_S512x1_0_331 : ∀ a, (![0, 331] : Fin 2 → Nat) a + S512x1.size a ≤ S512x512.size a
  inb_S512x512_S1x512_331_0 : ∀ a, (![331, 0] : Fin 2 → Nat) a + S1x512.size a ≤ S512x512.size a
  inb_S512x512_S512x1_0_332 : ∀ a, (![0, 332] : Fin 2 → Nat) a + S512x1.size a ≤ S512x512.size a
  inb_S512x512_S1x512_332_0 : ∀ a, (![332, 0] : Fin 2 → Nat) a + S1x512.size a ≤ S512x512.size a
  inb_S512x512_S512x1_0_333 : ∀ a, (![0, 333] : Fin 2 → Nat) a + S512x1.size a ≤ S512x512.size a
  inb_S512x512_S1x512_333_0 : ∀ a, (![333, 0] : Fin 2 → Nat) a + S1x512.size a ≤ S512x512.size a
  inb_S512x512_S512x1_0_334 : ∀ a, (![0, 334] : Fin 2 → Nat) a + S512x1.size a ≤ S512x512.size a
  inb_S512x512_S1x512_334_0 : ∀ a, (![334, 0] : Fin 2 → Nat) a + S1x512.size a ≤ S512x512.size a
  inb_S512x512_S512x1_0_335 : ∀ a, (![0, 335] : Fin 2 → Nat) a + S512x1.size a ≤ S512x512.size a
  inb_S512x512_S1x512_335_0 : ∀ a, (![335, 0] : Fin 2 → Nat) a + S1x512.size a ≤ S512x512.size a
  inb_S512x512_S512x1_0_336 : ∀ a, (![0, 336] : Fin 2 → Nat) a + S512x1.size a ≤ S512x512.size a
  inb_S512x512_S1x512_336_0 : ∀ a, (![336, 0] : Fin 2 → Nat) a + S1x512.size a ≤ S512x512.size a
  inb_S512x512_S512x1_0_337 : ∀ a, (![0, 337] : Fin 2 → Nat) a + S512x1.size a ≤ S512x512.size a
  inb_S512x512_S1x512_337_0 : ∀ a, (![337, 0] : Fin 2 → Nat) a + S1x512.size a ≤ S512x512.size a
  inb_S512x512_S512x1_0_338 : ∀ a, (![0, 338] : Fin 2 → Nat) a + S512x1.size a ≤ S512x512.size a
  inb_S512x512_S1x512_338_0 : ∀ a, (![338, 0] : Fin 2 → Nat) a + S1x512.size a ≤ S512x512.size a
  inb_S512x512_S512x1_0_339 : ∀ a, (![0, 339] : Fin 2 → Nat) a + S512x1.size a ≤ S512x512.size a
  inb_S512x512_S1x512_339_0 : ∀ a, (![339, 0] : Fin 2 → Nat) a + S1x512.size a ≤ S512x512.size a
  inb_S512x512_S512x1_0_340 : ∀ a, (![0, 340] : Fin 2 → Nat) a + S512x1.size a ≤ S512x512.size a
  inb_S512x512_S1x512_340_0 : ∀ a, (![340, 0] : Fin 2 → Nat) a + S1x512.size a ≤ S512x512.size a
  inb_S512x512_S512x1_0_341 : ∀ a, (![0, 341] : Fin 2 → Nat) a + S512x1.size a ≤ S512x512.size a
  inb_S512x512_S1x512_341_0 : ∀ a, (![341, 0] : Fin 2 → Nat) a + S1x512.size a ≤ S512x512.size a
  inb_S512x512_S512x1_0_342 : ∀ a, (![0, 342] : Fin 2 → Nat) a + S512x1.size a ≤ S512x512.size a
  inb_S512x512_S1x512_342_0 : ∀ a, (![342, 0] : Fin 2 → Nat) a + S1x512.size a ≤ S512x512.size a
  inb_S512x512_S512x1_0_343 : ∀ a, (![0, 343] : Fin 2 → Nat) a + S512x1.size a ≤ S512x512.size a
  inb_S512x512_S1x512_343_0 : ∀ a, (![343, 0] : Fin 2 → Nat) a + S1x512.size a ≤ S512x512.size a
  inb_S512x512_S512x1_0_344 : ∀ a, (![0, 344] : Fin 2 → Nat) a + S512x1.size a ≤ S512x512.size a
  inb_S512x512_S1x512_344_0 : ∀ a, (![344, 0] : Fin 2 → Nat) a + S1x512.size a ≤ S512x512.size a
  inb_S512x512_S512x1_0_345 : ∀ a, (![0, 345] : Fin 2 → Nat) a + S512x1.size a ≤ S512x512.size a
  inb_S512x512_S1x512_345_0 : ∀ a, (![345, 0] : Fin 2 → Nat) a + S1x512.size a ≤ S512x512.size a
  inb_S512x512_S512x1_0_346 : ∀ a, (![0, 346] : Fin 2 → Nat) a + S512x1.size a ≤ S512x512.size a
  inb_S512x512_S1x512_346_0 : ∀ a, (![346, 0] : Fin 2 → Nat) a + S1x512.size a ≤ S512x512.size a
  inb_S512x512_S512x1_0_347 : ∀ a, (![0, 347] : Fin 2 → Nat) a + S512x1.size a ≤ S512x512.size a
  inb_S512x512_S1x512_347_0 : ∀ a, (![347, 0] : Fin 2 → Nat) a + S1x512.size a ≤ S512x512.size a
  inb_S512x512_S512x1_0_348 : ∀ a, (![0, 348] : Fin 2 → Nat) a + S512x1.size a ≤ S512x512.size a
  inb_S512x512_S1x512_348_0 : ∀ a, (![348, 0] : Fin 2 → Nat) a + S1x512.size a ≤ S512x512.size a
  inb_S512x512_S512x1_0_349 : ∀ a, (![0, 349] : Fin 2 → Nat) a + S512x1.size a ≤ S512x512.size a
  inb_S512x512_S1x512_349_0 : ∀ a, (![349, 0] : Fin 2 → Nat) a + S1x512.size a ≤ S512x512.size a
  inb_S512x512_S512x1_0_350 : ∀ a, (![0, 350] : Fin 2 → Nat) a + S512x1.size a ≤ S512x512.size a
  inb_S512x512_S1x512_350_0 : ∀ a, (![350, 0] : Fin 2 → Nat) a + S1x512.size a ≤ S512x512.size a
  inb_S512x512_S512x1_0_351 : ∀ a, (![0, 351] : Fin 2 → Nat) a + S512x1.size a ≤ S512x512.size a
  inb_S512x512_S1x512_351_0 : ∀ a, (![351, 0] : Fin 2 → Nat) a + S1x512.size a ≤ S512x512.size a
  inb_S512x512_S512x1_0_352 : ∀ a, (![0, 352] : Fin 2 → Nat) a + S512x1.size a ≤ S512x512.size a
  inb_S512x512_S1x512_352_0 : ∀ a, (![352, 0] : Fin 2 → Nat) a + S1x512.size a ≤ S512x512.size a
  inb_S512x512_S512x1_0_353 : ∀ a, (![0, 353] : Fin 2 → Nat) a + S512x1.size a ≤ S512x512.size a
  inb_S512x512_S1x512_353_0 : ∀ a, (![353, 0] : Fin 2 → Nat) a + S1x512.size a ≤ S512x512.size a
  inb_S512x512_S512x1_0_354 : ∀ a, (![0, 354] : Fin 2 → Nat) a + S512x1.size a ≤ S512x512.size a
  inb_S512x512_S1x512_354_0 : ∀ a, (![354, 0] : Fin 2 → Nat) a + S1x512.size a ≤ S512x512.size a
  inb_S512x512_S512x1_0_355 : ∀ a, (![0, 355] : Fin 2 → Nat) a + S512x1.size a ≤ S512x512.size a
  inb_S512x512_S1x512_355_0 : ∀ a, (![355, 0] : Fin 2 → Nat) a + S1x512.size a ≤ S512x512.size a
  inb_S512x512_S512x1_0_356 : ∀ a, (![0, 356] : Fin 2 → Nat) a + S512x1.size a ≤ S512x512.size a
  inb_S512x512_S1x512_356_0 : ∀ a, (![356, 0] : Fin 2 → Nat) a + S1x512.size a ≤ S512x512.size a
  inb_S512x512_S512x1_0_357 : ∀ a, (![0, 357] : Fin 2 → Nat) a + S512x1.size a ≤ S512x512.size a
  inb_S512x512_S1x512_357_0 : ∀ a, (![357, 0] : Fin 2 → Nat) a + S1x512.size a ≤ S512x512.size a
  inb_S512x512_S512x1_0_358 : ∀ a, (![0, 358] : Fin 2 → Nat) a + S512x1.size a ≤ S512x512.size a
  inb_S512x512_S1x512_358_0 : ∀ a, (![358, 0] : Fin 2 → Nat) a + S1x512.size a ≤ S512x512.size a
  inb_S512x512_S512x1_0_359 : ∀ a, (![0, 359] : Fin 2 → Nat) a + S512x1.size a ≤ S512x512.size a
  inb_S512x512_S1x512_359_0 : ∀ a, (![359, 0] : Fin 2 → Nat) a + S1x512.size a ≤ S512x512.size a
  inb_S512x512_S512x1_0_360 : ∀ a, (![0, 360] : Fin 2 → Nat) a + S512x1.size a ≤ S512x512.size a
  inb_S512x512_S1x512_360_0 : ∀ a, (![360, 0] : Fin 2 → Nat) a + S1x512.size a ≤ S512x512.size a
  inb_S512x512_S512x1_0_361 : ∀ a, (![0, 361] : Fin 2 → Nat) a + S512x1.size a ≤ S512x512.size a
  inb_S512x512_S1x512_361_0 : ∀ a, (![361, 0] : Fin 2 → Nat) a + S1x512.size a ≤ S512x512.size a
  inb_S512x512_S512x1_0_362 : ∀ a, (![0, 362] : Fin 2 → Nat) a + S512x1.size a ≤ S512x512.size a
  inb_S512x512_S1x512_362_0 : ∀ a, (![362, 0] : Fin 2 → Nat) a + S1x512.size a ≤ S512x512.size a
  inb_S512x512_S512x1_0_363 : ∀ a, (![0, 363] : Fin 2 → Nat) a + S512x1.size a ≤ S512x512.size a
  inb_S512x512_S1x512_363_0 : ∀ a, (![363, 0] : Fin 2 → Nat) a + S1x512.size a ≤ S512x512.size a
  inb_S512x512_S512x1_0_364 : ∀ a, (![0, 364] : Fin 2 → Nat) a + S512x1.size a ≤ S512x512.size a
  inb_S512x512_S1x512_364_0 : ∀ a, (![364, 0] : Fin 2 → Nat) a + S1x512.size a ≤ S512x512.size a
  inb_S512x512_S512x1_0_365 : ∀ a, (![0, 365] : Fin 2 → Nat) a + S512x1.size a ≤ S512x512.size a
  inb_S512x512_S1x512_365_0 : ∀ a, (![365, 0] : Fin 2 → Nat) a + S1x512.size a ≤ S512x512.size a
  inb_S512x512_S512x1_0_366 : ∀ a, (![0, 366] : Fin 2 → Nat) a + S512x1.size a ≤ S512x512.size a
  inb_S512x512_S1x512_366_0 : ∀ a, (![366, 0] : Fin 2 → Nat) a + S1x512.size a ≤ S512x512.size a
  inb_S512x512_S512x1_0_367 : ∀ a, (![0, 367] : Fin 2 → Nat) a + S512x1.size a ≤ S512x512.size a
  inb_S512x512_S1x512_367_0 : ∀ a, (![367, 0] : Fin 2 → Nat) a + S1x512.size a ≤ S512x512.size a
  inb_S512x512_S512x1_0_368 : ∀ a, (![0, 368] : Fin 2 → Nat) a + S512x1.size a ≤ S512x512.size a
  inb_S512x512_S1x512_368_0 : ∀ a, (![368, 0] : Fin 2 → Nat) a + S1x512.size a ≤ S512x512.size a
  inb_S512x512_S512x1_0_369 : ∀ a, (![0, 369] : Fin 2 → Nat) a + S512x1.size a ≤ S512x512.size a
  inb_S512x512_S1x512_369_0 : ∀ a, (![369, 0] : Fin 2 → Nat) a + S1x512.size a ≤ S512x512.size a
  inb_S512x512_S512x1_0_370 : ∀ a, (![0, 370] : Fin 2 → Nat) a + S512x1.size a ≤ S512x512.size a
  inb_S512x512_S1x512_370_0 : ∀ a, (![370, 0] : Fin 2 → Nat) a + S1x512.size a ≤ S512x512.size a
  inb_S512x512_S512x1_0_371 : ∀ a, (![0, 371] : Fin 2 → Nat) a + S512x1.size a ≤ S512x512.size a
  inb_S512x512_S1x512_371_0 : ∀ a, (![371, 0] : Fin 2 → Nat) a + S1x512.size a ≤ S512x512.size a
  inb_S512x512_S512x1_0_372 : ∀ a, (![0, 372] : Fin 2 → Nat) a + S512x1.size a ≤ S512x512.size a
  inb_S512x512_S1x512_372_0 : ∀ a, (![372, 0] : Fin 2 → Nat) a + S1x512.size a ≤ S512x512.size a
  inb_S512x512_S512x1_0_373 : ∀ a, (![0, 373] : Fin 2 → Nat) a + S512x1.size a ≤ S512x512.size a
  inb_S512x512_S1x512_373_0 : ∀ a, (![373, 0] : Fin 2 → Nat) a + S1x512.size a ≤ S512x512.size a
  inb_S512x512_S512x1_0_374 : ∀ a, (![0, 374] : Fin 2 → Nat) a + S512x1.size a ≤ S512x512.size a
  inb_S512x512_S1x512_374_0 : ∀ a, (![374, 0] : Fin 2 → Nat) a + S1x512.size a ≤ S512x512.size a
  inb_S512x512_S512x1_0_375 : ∀ a, (![0, 375] : Fin 2 → Nat) a + S512x1.size a ≤ S512x512.size a
  inb_S512x512_S1x512_375_0 : ∀ a, (![375, 0] : Fin 2 → Nat) a + S1x512.size a ≤ S512x512.size a
  inb_S512x512_S512x1_0_376 : ∀ a, (![0, 376] : Fin 2 → Nat) a + S512x1.size a ≤ S512x512.size a
  inb_S512x512_S1x512_376_0 : ∀ a, (![376, 0] : Fin 2 → Nat) a + S1x512.size a ≤ S512x512.size a
  inb_S512x512_S512x1_0_377 : ∀ a, (![0, 377] : Fin 2 → Nat) a + S512x1.size a ≤ S512x512.size a
  inb_S512x512_S1x512_377_0 : ∀ a, (![377, 0] : Fin 2 → Nat) a + S1x512.size a ≤ S512x512.size a
  inb_S512x512_S512x1_0_378 : ∀ a, (![0, 378] : Fin 2 → Nat) a + S512x1.size a ≤ S512x512.size a
  inb_S512x512_S1x512_378_0 : ∀ a, (![378, 0] : Fin 2 → Nat) a + S1x512.size a ≤ S512x512.size a
  inb_S512x512_S512x1_0_379 : ∀ a, (![0, 379] : Fin 2 → Nat) a + S512x1.size a ≤ S512x512.size a
  inb_S512x512_S1x512_379_0 : ∀ a, (![379, 0] : Fin 2 → Nat) a + S1x512.size a ≤ S512x512.size a
  inb_S512x512_S512x1_0_380 : ∀ a, (![0, 380] : Fin 2 → Nat) a + S512x1.size a ≤ S512x512.size a
  inb_S512x512_S1x512_380_0 : ∀ a, (![380, 0] : Fin 2 → Nat) a + S1x512.size a ≤ S512x512.size a
  inb_S512x512_S512x1_0_381 : ∀ a, (![0, 381] : Fin 2 → Nat) a + S512x1.size a ≤ S512x512.size a
  inb_S512x512_S1x512_381_0 : ∀ a, (![381, 0] : Fin 2 → Nat) a + S1x512.size a ≤ S512x512.size a
  inb_S512x512_S512x1_0_382 : ∀ a, (![0, 382] : Fin 2 → Nat) a + S512x1.size a ≤ S512x512.size a
  inb_S512x512_S1x512_382_0 : ∀ a, (![382, 0] : Fin 2 → Nat) a + S1x512.size a ≤ S512x512.size a
  inb_S512x512_S512x1_0_383 : ∀ a, (![0, 383] : Fin 2 → Nat) a + S512x1.size a ≤ S512x512.size a
  inb_S512x512_S1x512_383_0 : ∀ a, (![383, 0] : Fin 2 → Nat) a + S1x512.size a ≤ S512x512.size a
  inb_S512x512_S512x1_0_384 : ∀ a, (![0, 384] : Fin 2 → Nat) a + S512x1.size a ≤ S512x512.size a
  inb_S512x512_S1x512_384_0 : ∀ a, (![384, 0] : Fin 2 → Nat) a + S1x512.size a ≤ S512x512.size a
  inb_S512x512_S512x1_0_385 : ∀ a, (![0, 385] : Fin 2 → Nat) a + S512x1.size a ≤ S512x512.size a
  inb_S512x512_S1x512_385_0 : ∀ a, (![385, 0] : Fin 2 → Nat) a + S1x512.size a ≤ S512x512.size a
  inb_S512x512_S512x1_0_386 : ∀ a, (![0, 386] : Fin 2 → Nat) a + S512x1.size a ≤ S512x512.size a
  inb_S512x512_S1x512_386_0 : ∀ a, (![386, 0] : Fin 2 → Nat) a + S1x512.size a ≤ S512x512.size a
  inb_S512x512_S512x1_0_387 : ∀ a, (![0, 387] : Fin 2 → Nat) a + S512x1.size a ≤ S512x512.size a
  inb_S512x512_S1x512_387_0 : ∀ a, (![387, 0] : Fin 2 → Nat) a + S1x512.size a ≤ S512x512.size a
  inb_S512x512_S512x1_0_388 : ∀ a, (![0, 388] : Fin 2 → Nat) a + S512x1.size a ≤ S512x512.size a
  inb_S512x512_S1x512_388_0 : ∀ a, (![388, 0] : Fin 2 → Nat) a + S1x512.size a ≤ S512x512.size a
  inb_S512x512_S512x1_0_389 : ∀ a, (![0, 389] : Fin 2 → Nat) a + S512x1.size a ≤ S512x512.size a
  inb_S512x512_S1x512_389_0 : ∀ a, (![389, 0] : Fin 2 → Nat) a + S1x512.size a ≤ S512x512.size a
  inb_S512x512_S512x1_0_390 : ∀ a, (![0, 390] : Fin 2 → Nat) a + S512x1.size a ≤ S512x512.size a
  inb_S512x512_S1x512_390_0 : ∀ a, (![390, 0] : Fin 2 → Nat) a + S1x512.size a ≤ S512x512.size a
  inb_S512x512_S512x1_0_391 : ∀ a, (![0, 391] : Fin 2 → Nat) a + S512x1.size a ≤ S512x512.size a
  inb_S512x512_S1x512_391_0 : ∀ a, (![391, 0] : Fin 2 → Nat) a + S1x512.size a ≤ S512x512.size a
  inb_S512x512_S512x1_0_392 : ∀ a, (![0, 392] : Fin 2 → Nat) a + S512x1.size a ≤ S512x512.size a
  inb_S512x512_S1x512_392_0 : ∀ a, (![392, 0] : Fin 2 → Nat) a + S1x512.size a ≤ S512x512.size a
  inb_S512x512_S512x1_0_393 : ∀ a, (![0, 393] : Fin 2 → Nat) a + S512x1.size a ≤ S512x512.size a
  inb_S512x512_S1x512_393_0 : ∀ a, (![393, 0] : Fin 2 → Nat) a + S1x512.size a ≤ S512x512.size a
  inb_S512x512_S512x1_0_394 : ∀ a, (![0, 394] : Fin 2 → Nat) a + S512x1.size a ≤ S512x512.size a
  inb_S512x512_S1x512_394_0 : ∀ a, (![394, 0] : Fin 2 → Nat) a + S1x512.size a ≤ S512x512.size a
  inb_S512x512_S512x1_0_395 : ∀ a, (![0, 395] : Fin 2 → Nat) a + S512x1.size a ≤ S512x512.size a
  inb_S512x512_S1x512_395_0 : ∀ a, (![395, 0] : Fin 2 → Nat) a + S1x512.size a ≤ S512x512.size a
  inb_S512x512_S512x1_0_396 : ∀ a, (![0, 396] : Fin 2 → Nat) a + S512x1.size a ≤ S512x512.size a
  inb_S512x512_S1x512_396_0 : ∀ a, (![396, 0] : Fin 2 → Nat) a + S1x512.size a ≤ S512x512.size a
  inb_S512x512_S512x1_0_397 : ∀ a, (![0, 397] : Fin 2 → Nat) a + S512x1.size a ≤ S512x512.size a
  inb_S512x512_S1x512_397_0 : ∀ a, (![397, 0] : Fin 2 → Nat) a + S1x512.size a ≤ S512x512.size a
  inb_S512x512_S512x1_0_398 : ∀ a, (![0, 398] : Fin 2 → Nat) a + S512x1.size a ≤ S512x512.size a
  inb_S512x512_S1x512_398_0 : ∀ a, (![398, 0] : Fin 2 → Nat) a + S1x512.size a ≤ S512x512.size a
  inb_S512x512_S512x1_0_399 : ∀ a, (![0, 399] : Fin 2 → Nat) a + S512x1.size a ≤ S512x512.size a
  inb_S512x512_S1x512_399_0 : ∀ a, (![399, 0] : Fin 2 → Nat) a + S1x512.size a ≤ S512x512.size a
  inb_S512x512_S512x1_0_400 : ∀ a, (![0, 400] : Fin 2 → Nat) a + S512x1.size a ≤ S512x512.size a
  inb_S512x512_S1x512_400_0 : ∀ a, (![400, 0] : Fin 2 → Nat) a + S1x512.size a ≤ S512x512.size a
  inb_S512x512_S512x1_0_401 : ∀ a, (![0, 401] : Fin 2 → Nat) a + S512x1.size a ≤ S512x512.size a
  inb_S512x512_S1x512_401_0 : ∀ a, (![401, 0] : Fin 2 → Nat) a + S1x512.size a ≤ S512x512.size a
  inb_S512x512_S512x1_0_402 : ∀ a, (![0, 402] : Fin 2 → Nat) a + S512x1.size a ≤ S512x512.size a
  inb_S512x512_S1x512_402_0 : ∀ a, (![402, 0] : Fin 2 → Nat) a + S1x512.size a ≤ S512x512.size a
  inb_S512x512_S512x1_0_403 : ∀ a, (![0, 403] : Fin 2 → Nat) a + S512x1.size a ≤ S512x512.size a
  inb_S512x512_S1x512_403_0 : ∀ a, (![403, 0] : Fin 2 → Nat) a + S1x512.size a ≤ S512x512.size a
  inb_S512x512_S512x1_0_404 : ∀ a, (![0, 404] : Fin 2 → Nat) a + S512x1.size a ≤ S512x512.size a
  inb_S512x512_S1x512_404_0 : ∀ a, (![404, 0] : Fin 2 → Nat) a + S1x512.size a ≤ S512x512.size a
  inb_S512x512_S512x1_0_405 : ∀ a, (![0, 405] : Fin 2 → Nat) a + S512x1.size a ≤ S512x512.size a
  inb_S512x512_S1x512_405_0 : ∀ a, (![405, 0] : Fin 2 → Nat) a + S1x512.size a ≤ S512x512.size a
  inb_S512x512_S512x1_0_406 : ∀ a, (![0, 406] : Fin 2 → Nat) a + S512x1.size a ≤ S512x512.size a
  inb_S512x512_S1x512_406_0 : ∀ a, (![406, 0] : Fin 2 → Nat) a + S1x512.size a ≤ S512x512.size a
  inb_S512x512_S512x1_0_407 : ∀ a, (![0, 407] : Fin 2 → Nat) a + S512x1.size a ≤ S512x512.size a
  inb_S512x512_S1x512_407_0 : ∀ a, (![407, 0] : Fin 2 → Nat) a + S1x512.size a ≤ S512x512.size a
  inb_S512x512_S512x1_0_408 : ∀ a, (![0, 408] : Fin 2 → Nat) a + S512x1.size a ≤ S512x512.size a
  inb_S512x512_S1x512_408_0 : ∀ a, (![408, 0] : Fin 2 → Nat) a + S1x512.size a ≤ S512x512.size a
  inb_S512x512_S512x1_0_409 : ∀ a, (![0, 409] : Fin 2 → Nat) a + S512x1.size a ≤ S512x512.size a
  inb_S512x512_S1x512_409_0 : ∀ a, (![409, 0] : Fin 2 → Nat) a + S1x512.size a ≤ S512x512.size a
  inb_S512x512_S512x1_0_410 : ∀ a, (![0, 410] : Fin 2 → Nat) a + S512x1.size a ≤ S512x512.size a
  inb_S512x512_S1x512_410_0 : ∀ a, (![410, 0] : Fin 2 → Nat) a + S1x512.size a ≤ S512x512.size a
  inb_S512x512_S512x1_0_411 : ∀ a, (![0, 411] : Fin 2 → Nat) a + S512x1.size a ≤ S512x512.size a
  inb_S512x512_S1x512_411_0 : ∀ a, (![411, 0] : Fin 2 → Nat) a + S1x512.size a ≤ S512x512.size a
  inb_S512x512_S512x1_0_412 : ∀ a, (![0, 412] : Fin 2 → Nat) a + S512x1.size a ≤ S512x512.size a
  inb_S512x512_S1x512_412_0 : ∀ a, (![412, 0] : Fin 2 → Nat) a + S1x512.size a ≤ S512x512.size a
  inb_S512x512_S512x1_0_413 : ∀ a, (![0, 413] : Fin 2 → Nat) a + S512x1.size a ≤ S512x512.size a
  inb_S512x512_S1x512_413_0 : ∀ a, (![413, 0] : Fin 2 → Nat) a + S1x512.size a ≤ S512x512.size a
  inb_S512x512_S512x1_0_414 : ∀ a, (![0, 414] : Fin 2 → Nat) a + S512x1.size a ≤ S512x512.size a
  inb_S512x512_S1x512_414_0 : ∀ a, (![414, 0] : Fin 2 → Nat) a + S1x512.size a ≤ S512x512.size a
  inb_S512x512_S512x1_0_415 : ∀ a, (![0, 415] : Fin 2 → Nat) a + S512x1.size a ≤ S512x512.size a
  inb_S512x512_S1x512_415_0 : ∀ a, (![415, 0] : Fin 2 → Nat) a + S1x512.size a ≤ S512x512.size a
  inb_S512x512_S512x1_0_416 : ∀ a, (![0, 416] : Fin 2 → Nat) a + S512x1.size a ≤ S512x512.size a
  inb_S512x512_S1x512_416_0 : ∀ a, (![416, 0] : Fin 2 → Nat) a + S1x512.size a ≤ S512x512.size a
  inb_S512x512_S512x1_0_417 : ∀ a, (![0, 417] : Fin 2 → Nat) a + S512x1.size a ≤ S512x512.size a
  inb_S512x512_S1x512_417_0 : ∀ a, (![417, 0] : Fin 2 → Nat) a + S1x512.size a ≤ S512x512.size a
  inb_S512x512_S512x1_0_418 : ∀ a, (![0, 418] : Fin 2 → Nat) a + S512x1.size a ≤ S512x512.size a
  inb_S512x512_S1x512_418_0 : ∀ a, (![418, 0] : Fin 2 → Nat) a + S1x512.size a ≤ S512x512.size a
  inb_S512x512_S512x1_0_419 : ∀ a, (![0, 419] : Fin 2 → Nat) a + S512x1.size a ≤ S512x512.size a
  inb_S512x512_S1x512_419_0 : ∀ a, (![419, 0] : Fin 2 → Nat) a + S1x512.size a ≤ S512x512.size a
  inb_S512x512_S512x1_0_420 : ∀ a, (![0, 420] : Fin 2 → Nat) a + S512x1.size a ≤ S512x512.size a
  inb_S512x512_S1x512_420_0 : ∀ a, (![420, 0] : Fin 2 → Nat) a + S1x512.size a ≤ S512x512.size a
  inb_S512x512_S512x1_0_421 : ∀ a, (![0, 421] : Fin 2 → Nat) a + S512x1.size a ≤ S512x512.size a
  inb_S512x512_S1x512_421_0 : ∀ a, (![421, 0] : Fin 2 → Nat) a + S1x512.size a ≤ S512x512.size a
  inb_S512x512_S512x1_0_422 : ∀ a, (![0, 422] : Fin 2 → Nat) a + S512x1.size a ≤ S512x512.size a
  inb_S512x512_S1x512_422_0 : ∀ a, (![422, 0] : Fin 2 → Nat) a + S1x512.size a ≤ S512x512.size a
  inb_S512x512_S512x1_0_423 : ∀ a, (![0, 423] : Fin 2 → Nat) a + S512x1.size a ≤ S512x512.size a
  inb_S512x512_S1x512_423_0 : ∀ a, (![423, 0] : Fin 2 → Nat) a + S1x512.size a ≤ S512x512.size a
  inb_S512x512_S512x1_0_424 : ∀ a, (![0, 424] : Fin 2 → Nat) a + S512x1.size a ≤ S512x512.size a
  inb_S512x512_S1x512_424_0 : ∀ a, (![424, 0] : Fin 2 → Nat) a + S1x512.size a ≤ S512x512.size a
  inb_S512x512_S512x1_0_425 : ∀ a, (![0, 425] : Fin 2 → Nat) a + S512x1.size a ≤ S512x512.size a
  inb_S512x512_S1x512_425_0 : ∀ a, (![425, 0] : Fin 2 → Nat) a + S1x512.size a ≤ S512x512.size a
  inb_S512x512_S512x1_0_426 : ∀ a, (![0, 426] : Fin 2 → Nat) a + S512x1.size a ≤ S512x512.size a
  inb_S512x512_S1x512_426_0 : ∀ a, (![426, 0] : Fin 2 → Nat) a + S1x512.size a ≤ S512x512.size a
  inb_S512x512_S512x1_0_427 : ∀ a, (![0, 427] : Fin 2 → Nat) a + S512x1.size a ≤ S512x512.size a
  inb_S512x512_S1x512_427_0 : ∀ a, (![427, 0] : Fin 2 → Nat) a + S1x512.size a ≤ S512x512.size a
  inb_S512x512_S512x1_0_428 : ∀ a, (![0, 428] : Fin 2 → Nat) a + S512x1.size a ≤ S512x512.size a
  inb_S512x512_S1x512_428_0 : ∀ a, (![428, 0] : Fin 2 → Nat) a + S1x512.size a ≤ S512x512.size a
  inb_S512x512_S512x1_0_429 : ∀ a, (![0, 429] : Fin 2 → Nat) a + S512x1.size a ≤ S512x512.size a
  inb_S512x512_S1x512_429_0 : ∀ a, (![429, 0] : Fin 2 → Nat) a + S1x512.size a ≤ S512x512.size a
  inb_S512x512_S512x1_0_430 : ∀ a, (![0, 430] : Fin 2 → Nat) a + S512x1.size a ≤ S512x512.size a
  inb_S512x512_S1x512_430_0 : ∀ a, (![430, 0] : Fin 2 → Nat) a + S1x512.size a ≤ S512x512.size a
  inb_S512x512_S512x1_0_431 : ∀ a, (![0, 431] : Fin 2 → Nat) a + S512x1.size a ≤ S512x512.size a
  inb_S512x512_S1x512_431_0 : ∀ a, (![431, 0] : Fin 2 → Nat) a + S1x512.size a ≤ S512x512.size a
  inb_S512x512_S512x1_0_432 : ∀ a, (![0, 432] : Fin 2 → Nat) a + S512x1.size a ≤ S512x512.size a
  inb_S512x512_S1x512_432_0 : ∀ a, (![432, 0] : Fin 2 → Nat) a + S1x512.size a ≤ S512x512.size a
  inb_S512x512_S512x1_0_433 : ∀ a, (![0, 433] : Fin 2 → Nat) a + S512x1.size a ≤ S512x512.size a
  inb_S512x512_S1x512_433_0 : ∀ a, (![433, 0] : Fin 2 → Nat) a + S1x512.size a ≤ S512x512.size a
  inb_S512x512_S512x1_0_434 : ∀ a, (![0, 434] : Fin 2 → Nat) a + S512x1.size a ≤ S512x512.size a
  inb_S512x512_S1x512_434_0 : ∀ a, (![434, 0] : Fin 2 → Nat) a + S1x512.size a ≤ S512x512.size a
  inb_S512x512_S512x1_0_435 : ∀ a, (![0, 435] : Fin 2 → Nat) a + S512x1.size a ≤ S512x512.size a
  inb_S512x512_S1x512_435_0 : ∀ a, (![435, 0] : Fin 2 → Nat) a + S1x512.size a ≤ S512x512.size a
  inb_S512x512_S512x1_0_436 : ∀ a, (![0, 436] : Fin 2 → Nat) a + S512x1.size a ≤ S512x512.size a
  inb_S512x512_S1x512_436_0 : ∀ a, (![436, 0] : Fin 2 → Nat) a + S1x512.size a ≤ S512x512.size a
  inb_S512x512_S512x1_0_437 : ∀ a, (![0, 437] : Fin 2 → Nat) a + S512x1.size a ≤ S512x512.size a
  inb_S512x512_S1x512_437_0 : ∀ a, (![437, 0] : Fin 2 → Nat) a + S1x512.size a ≤ S512x512.size a
  inb_S512x512_S512x1_0_438 : ∀ a, (![0, 438] : Fin 2 → Nat) a + S512x1.size a ≤ S512x512.size a
  inb_S512x512_S1x512_438_0 : ∀ a, (![438, 0] : Fin 2 → Nat) a + S1x512.size a ≤ S512x512.size a
  inb_S512x512_S512x1_0_439 : ∀ a, (![0, 439] : Fin 2 → Nat) a + S512x1.size a ≤ S512x512.size a
  inb_S512x512_S1x512_439_0 : ∀ a, (![439, 0] : Fin 2 → Nat) a + S1x512.size a ≤ S512x512.size a
  inb_S512x512_S512x1_0_440 : ∀ a, (![0, 440] : Fin 2 → Nat) a + S512x1.size a ≤ S512x512.size a
  inb_S512x512_S1x512_440_0 : ∀ a, (![440, 0] : Fin 2 → Nat) a + S1x512.size a ≤ S512x512.size a
  inb_S512x512_S512x1_0_441 : ∀ a, (![0, 441] : Fin 2 → Nat) a + S512x1.size a ≤ S512x512.size a
  inb_S512x512_S1x512_441_0 : ∀ a, (![441, 0] : Fin 2 → Nat) a + S1x512.size a ≤ S512x512.size a
  inb_S512x512_S512x1_0_442 : ∀ a, (![0, 442] : Fin 2 → Nat) a + S512x1.size a ≤ S512x512.size a
  inb_S512x512_S1x512_442_0 : ∀ a, (![442, 0] : Fin 2 → Nat) a + S1x512.size a ≤ S512x512.size a
  inb_S512x512_S512x1_0_443 : ∀ a, (![0, 443] : Fin 2 → Nat) a + S512x1.size a ≤ S512x512.size a
  inb_S512x512_S1x512_443_0 : ∀ a, (![443, 0] : Fin 2 → Nat) a + S1x512.size a ≤ S512x512.size a
  inb_S512x512_S512x1_0_444 : ∀ a, (![0, 444] : Fin 2 → Nat) a + S512x1.size a ≤ S512x512.size a
  inb_S512x512_S1x512_444_0 : ∀ a, (![444, 0] : Fin 2 → Nat) a + S1x512.size a ≤ S512x512.size a
  inb_S512x512_S512x1_0_445 : ∀ a, (![0, 445] : Fin 2 → Nat) a + S512x1.size a ≤ S512x512.size a
  inb_S512x512_S1x512_445_0 : ∀ a, (![445, 0] : Fin 2 → Nat) a + S1x512.size a ≤ S512x512.size a
  inb_S512x512_S512x1_0_446 : ∀ a, (![0, 446] : Fin 2 → Nat) a + S512x1.size a ≤ S512x512.size a
  inb_S512x512_S1x512_446_0 : ∀ a, (![446, 0] : Fin 2 → Nat) a + S1x512.size a ≤ S512x512.size a
  inb_S512x512_S512x1_0_447 : ∀ a, (![0, 447] : Fin 2 → Nat) a + S512x1.size a ≤ S512x512.size a
  inb_S512x512_S1x512_447_0 : ∀ a, (![447, 0] : Fin 2 → Nat) a + S1x512.size a ≤ S512x512.size a
  inb_S512x512_S512x1_0_448 : ∀ a, (![0, 448] : Fin 2 → Nat) a + S512x1.size a ≤ S512x512.size a
  inb_S512x512_S1x512_448_0 : ∀ a, (![448, 0] : Fin 2 → Nat) a + S1x512.size a ≤ S512x512.size a
  inb_S512x512_S512x1_0_449 : ∀ a, (![0, 449] : Fin 2 → Nat) a + S512x1.size a ≤ S512x512.size a
  inb_S512x512_S1x512_449_0 : ∀ a, (![449, 0] : Fin 2 → Nat) a + S1x512.size a ≤ S512x512.size a
  inb_S512x512_S512x1_0_450 : ∀ a, (![0, 450] : Fin 2 → Nat) a + S512x1.size a ≤ S512x512.size a
  inb_S512x512_S1x512_450_0 : ∀ a, (![450, 0] : Fin 2 → Nat) a + S1x512.size a ≤ S512x512.size a
  inb_S512x512_S512x1_0_451 : ∀ a, (![0, 451] : Fin 2 → Nat) a + S512x1.size a ≤ S512x512.size a
  inb_S512x512_S1x512_451_0 : ∀ a, (![451, 0] : Fin 2 → Nat) a + S1x512.size a ≤ S512x512.size a
  inb_S512x512_S512x1_0_452 : ∀ a, (![0, 452] : Fin 2 → Nat) a + S512x1.size a ≤ S512x512.size a
  inb_S512x512_S1x512_452_0 : ∀ a, (![452, 0] : Fin 2 → Nat) a + S1x512.size a ≤ S512x512.size a
  inb_S512x512_S512x1_0_453 : ∀ a, (![0, 453] : Fin 2 → Nat) a + S512x1.size a ≤ S512x512.size a
  inb_S512x512_S1x512_453_0 : ∀ a, (![453, 0] : Fin 2 → Nat) a + S1x512.size a ≤ S512x512.size a
  inb_S512x512_S512x1_0_454 : ∀ a, (![0, 454] : Fin 2 → Nat) a + S512x1.size a ≤ S512x512.size a
  inb_S512x512_S1x512_454_0 : ∀ a, (![454, 0] : Fin 2 → Nat) a + S1x512.size a ≤ S512x512.size a
  inb_S512x512_S512x1_0_455 : ∀ a, (![0, 455] : Fin 2 → Nat) a + S512x1.size a ≤ S512x512.size a
  inb_S512x512_S1x512_455_0 : ∀ a, (![455, 0] : Fin 2 → Nat) a + S1x512.size a ≤ S512x512.size a
  inb_S512x512_S512x1_0_456 : ∀ a, (![0, 456] : Fin 2 → Nat) a + S512x1.size a ≤ S512x512.size a
  inb_S512x512_S1x512_456_0 : ∀ a, (![456, 0] : Fin 2 → Nat) a + S1x512.size a ≤ S512x512.size a
  inb_S512x512_S512x1_0_457 : ∀ a, (![0, 457] : Fin 2 → Nat) a + S512x1.size a ≤ S512x512.size a
  inb_S512x512_S1x512_457_0 : ∀ a, (![457, 0] : Fin 2 → Nat) a + S1x512.size a ≤ S512x512.size a
  inb_S512x512_S512x1_0_458 : ∀ a, (![0, 458] : Fin 2 → Nat) a + S512x1.size a ≤ S512x512.size a
  inb_S512x512_S1x512_458_0 : ∀ a, (![458, 0] : Fin 2 → Nat) a + S1x512.size a ≤ S512x512.size a
  inb_S512x512_S512x1_0_459 : ∀ a, (![0, 459] : Fin 2 → Nat) a + S512x1.size a ≤ S512x512.size a
  inb_S512x512_S1x512_459_0 : ∀ a, (![459, 0] : Fin 2 → Nat) a + S1x512.size a ≤ S512x512.size a
  inb_S512x512_S512x1_0_460 : ∀ a, (![0, 460] : Fin 2 → Nat) a + S512x1.size a ≤ S512x512.size a
  inb_S512x512_S1x512_460_0 : ∀ a, (![460, 0] : Fin 2 → Nat) a + S1x512.size a ≤ S512x512.size a
  inb_S512x512_S512x1_0_461 : ∀ a, (![0, 461] : Fin 2 → Nat) a + S512x1.size a ≤ S512x512.size a
  inb_S512x512_S1x512_461_0 : ∀ a, (![461, 0] : Fin 2 → Nat) a + S1x512.size a ≤ S512x512.size a
  inb_S512x512_S512x1_0_462 : ∀ a, (![0, 462] : Fin 2 → Nat) a + S512x1.size a ≤ S512x512.size a
  inb_S512x512_S1x512_462_0 : ∀ a, (![462, 0] : Fin 2 → Nat) a + S1x512.size a ≤ S512x512.size a
  inb_S512x512_S512x1_0_463 : ∀ a, (![0, 463] : Fin 2 → Nat) a + S512x1.size a ≤ S512x512.size a
  inb_S512x512_S1x512_463_0 : ∀ a, (![463, 0] : Fin 2 → Nat) a + S1x512.size a ≤ S512x512.size a
  inb_S512x512_S512x1_0_464 : ∀ a, (![0, 464] : Fin 2 → Nat) a + S512x1.size a ≤ S512x512.size a
  inb_S512x512_S1x512_464_0 : ∀ a, (![464, 0] : Fin 2 → Nat) a + S1x512.size a ≤ S512x512.size a
  inb_S512x512_S512x1_0_465 : ∀ a, (![0, 465] : Fin 2 → Nat) a + S512x1.size a ≤ S512x512.size a
  inb_S512x512_S1x512_465_0 : ∀ a, (![465, 0] : Fin 2 → Nat) a + S1x512.size a ≤ S512x512.size a
  inb_S512x512_S512x1_0_466 : ∀ a, (![0, 466] : Fin 2 → Nat) a + S512x1.size a ≤ S512x512.size a
  inb_S512x512_S1x512_466_0 : ∀ a, (![466, 0] : Fin 2 → Nat) a + S1x512.size a ≤ S512x512.size a
  inb_S512x512_S512x1_0_467 : ∀ a, (![0, 467] : Fin 2 → Nat) a + S512x1.size a ≤ S512x512.size a
  inb_S512x512_S1x512_467_0 : ∀ a, (![467, 0] : Fin 2 → Nat) a + S1x512.size a ≤ S512x512.size a
  inb_S512x512_S512x1_0_468 : ∀ a, (![0, 468] : Fin 2 → Nat) a + S512x1.size a ≤ S512x512.size a
  inb_S512x512_S1x512_468_0 : ∀ a, (![468, 0] : Fin 2 → Nat) a + S1x512.size a ≤ S512x512.size a
  inb_S512x512_S512x1_0_469 : ∀ a, (![0, 469] : Fin 2 → Nat) a + S512x1.size a ≤ S512x512.size a
  inb_S512x512_S1x512_469_0 : ∀ a, (![469, 0] : Fin 2 → Nat) a + S1x512.size a ≤ S512x512.size a
  inb_S512x512_S512x1_0_470 : ∀ a, (![0, 470] : Fin 2 → Nat) a + S512x1.size a ≤ S512x512.size a
  inb_S512x512_S1x512_470_0 : ∀ a, (![470, 0] : Fin 2 → Nat) a + S1x512.size a ≤ S512x512.size a
  inb_S512x512_S512x1_0_471 : ∀ a, (![0, 471] : Fin 2 → Nat) a + S512x1.size a ≤ S512x512.size a
  inb_S512x512_S1x512_471_0 : ∀ a, (![471, 0] : Fin 2 → Nat) a + S1x512.size a ≤ S512x512.size a
  inb_S512x512_S512x1_0_472 : ∀ a, (![0, 472] : Fin 2 → Nat) a + S512x1.size a ≤ S512x512.size a
  inb_S512x512_S1x512_472_0 : ∀ a, (![472, 0] : Fin 2 → Nat) a + S1x512.size a ≤ S512x512.size a
  inb_S512x512_S512x1_0_473 : ∀ a, (![0, 473] : Fin 2 → Nat) a + S512x1.size a ≤ S512x512.size a
  inb_S512x512_S1x512_473_0 : ∀ a, (![473, 0] : Fin 2 → Nat) a + S1x512.size a ≤ S512x512.size a
  inb_S512x512_S512x1_0_474 : ∀ a, (![0, 474] : Fin 2 → Nat) a + S512x1.size a ≤ S512x512.size a
  inb_S512x512_S1x512_474_0 : ∀ a, (![474, 0] : Fin 2 → Nat) a + S1x512.size a ≤ S512x512.size a
  inb_S512x512_S512x1_0_475 : ∀ a, (![0, 475] : Fin 2 → Nat) a + S512x1.size a ≤ S512x512.size a
  inb_S512x512_S1x512_475_0 : ∀ a, (![475, 0] : Fin 2 → Nat) a + S1x512.size a ≤ S512x512.size a
  inb_S512x512_S512x1_0_476 : ∀ a, (![0, 476] : Fin 2 → Nat) a + S512x1.size a ≤ S512x512.size a
  inb_S512x512_S1x512_476_0 : ∀ a, (![476, 0] : Fin 2 → Nat) a + S1x512.size a ≤ S512x512.size a
  inb_S512x512_S512x1_0_477 : ∀ a, (![0, 477] : Fin 2 → Nat) a + S512x1.size a ≤ S512x512.size a
  inb_S512x512_S1x512_477_0 : ∀ a, (![477, 0] : Fin 2 → Nat) a + S1x512.size a ≤ S512x512.size a
  inb_S512x512_S512x1_0_478 : ∀ a, (![0, 478] : Fin 2 → Nat) a + S512x1.size a ≤ S512x512.size a
  inb_S512x512_S1x512_478_0 : ∀ a, (![478, 0] : Fin 2 → Nat) a + S1x512.size a ≤ S512x512.size a
  inb_S512x512_S512x1_0_479 : ∀ a, (![0, 479] : Fin 2 → Nat) a + S512x1.size a ≤ S512x512.size a
  inb_S512x512_S1x512_479_0 : ∀ a, (![479, 0] : Fin 2 → Nat) a + S1x512.size a ≤ S512x512.size a
  inb_S512x512_S512x1_0_480 : ∀ a, (![0, 480] : Fin 2 → Nat) a + S512x1.size a ≤ S512x512.size a
  inb_S512x512_S1x512_480_0 : ∀ a, (![480, 0] : Fin 2 → Nat) a + S1x512.size a ≤ S512x512.size a
  inb_S512x512_S512x1_0_481 : ∀ a, (![0, 481] : Fin 2 → Nat) a + S512x1.size a ≤ S512x512.size a
  inb_S512x512_S1x512_481_0 : ∀ a, (![481, 0] : Fin 2 → Nat) a + S1x512.size a ≤ S512x512.size a
  inb_S512x512_S512x1_0_482 : ∀ a, (![0, 482] : Fin 2 → Nat) a + S512x1.size a ≤ S512x512.size a
  inb_S512x512_S1x512_482_0 : ∀ a, (![482, 0] : Fin 2 → Nat) a + S1x512.size a ≤ S512x512.size a
  inb_S512x512_S512x1_0_483 : ∀ a, (![0, 483] : Fin 2 → Nat) a + S512x1.size a ≤ S512x512.size a
  inb_S512x512_S1x512_483_0 : ∀ a, (![483, 0] : Fin 2 → Nat) a + S1x512.size a ≤ S512x512.size a
  inb_S512x512_S512x1_0_484 : ∀ a, (![0, 484] : Fin 2 → Nat) a + S512x1.size a ≤ S512x512.size a
  inb_S512x512_S1x512_484_0 : ∀ a, (![484, 0] : Fin 2 → Nat) a + S1x512.size a ≤ S512x512.size a
  inb_S512x512_S512x1_0_485 : ∀ a, (![0, 485] : Fin 2 → Nat) a + S512x1.size a ≤ S512x512.size a
  inb_S512x512_S1x512_485_0 : ∀ a, (![485, 0] : Fin 2 → Nat) a + S1x512.size a ≤ S512x512.size a
  inb_S512x512_S512x1_0_486 : ∀ a, (![0, 486] : Fin 2 → Nat) a + S512x1.size a ≤ S512x512.size a
  inb_S512x512_S1x512_486_0 : ∀ a, (![486, 0] : Fin 2 → Nat) a + S1x512.size a ≤ S512x512.size a
  inb_S512x512_S512x1_0_487 : ∀ a, (![0, 487] : Fin 2 → Nat) a + S512x1.size a ≤ S512x512.size a
  inb_S512x512_S1x512_487_0 : ∀ a, (![487, 0] : Fin 2 → Nat) a + S1x512.size a ≤ S512x512.size a
  inb_S512x512_S512x1_0_488 : ∀ a, (![0, 488] : Fin 2 → Nat) a + S512x1.size a ≤ S512x512.size a
  inb_S512x512_S1x512_488_0 : ∀ a, (![488, 0] : Fin 2 → Nat) a + S1x512.size a ≤ S512x512.size a
  inb_S512x512_S512x1_0_489 : ∀ a, (![0, 489] : Fin 2 → Nat) a + S512x1.size a ≤ S512x512.size a
  inb_S512x512_S1x512_489_0 : ∀ a, (![489, 0] : Fin 2 → Nat) a + S1x512.size a ≤ S512x512.size a
  inb_S512x512_S512x1_0_490 : ∀ a, (![0, 490] : Fin 2 → Nat) a + S512x1.size a ≤ S512x512.size a
  inb_S512x512_S1x512_490_0 : ∀ a, (![490, 0] : Fin 2 → Nat) a + S1x512.size a ≤ S512x512.size a
  inb_S512x512_S512x1_0_491 : ∀ a, (![0, 491] : Fin 2 → Nat) a + S512x1.size a ≤ S512x512.size a
  inb_S512x512_S1x512_491_0 : ∀ a, (![491, 0] : Fin 2 → Nat) a + S1x512.size a ≤ S512x512.size a
  inb_S512x512_S512x1_0_492 : ∀ a, (![0, 492] : Fin 2 → Nat) a + S512x1.size a ≤ S512x512.size a
  inb_S512x512_S1x512_492_0 : ∀ a, (![492, 0] : Fin 2 → Nat) a + S1x512.size a ≤ S512x512.size a
  inb_S512x512_S512x1_0_493 : ∀ a, (![0, 493] : Fin 2 → Nat) a + S512x1.size a ≤ S512x512.size a
  inb_S512x512_S1x512_493_0 : ∀ a, (![493, 0] : Fin 2 → Nat) a + S1x512.size a ≤ S512x512.size a
  inb_S512x512_S512x1_0_494 : ∀ a, (![0, 494] : Fin 2 → Nat) a + S512x1.size a ≤ S512x512.size a
  inb_S512x512_S1x512_494_0 : ∀ a, (![494, 0] : Fin 2 → Nat) a + S1x512.size a ≤ S512x512.size a
  inb_S512x512_S512x1_0_495 : ∀ a, (![0, 495] : Fin 2 → Nat) a + S512x1.size a ≤ S512x512.size a

class Shapes2.Facts₀ : Prop where
  inb_S512x512_S1x512_495_0 : ∀ a, (![495, 0] : Fin 2 → Nat) a + S1x512.size a ≤ S512x512.size a
  inb_S512x512_S512x1_0_496 : ∀ a, (![0, 496] : Fin 2 → Nat) a + S512x1.size a ≤ S512x512.size a
  inb_S512x512_S1x512_496_0 : ∀ a, (![496, 0] : Fin 2 → Nat) a + S1x512.size a ≤ S512x512.size a
  inb_S512x512_S512x1_0_497 : ∀ a, (![0, 497] : Fin 2 → Nat) a + S512x1.size a ≤ S512x512.size a
  inb_S512x512_S1x512_497_0 : ∀ a, (![497, 0] : Fin 2 → Nat) a + S1x512.size a ≤ S512x512.size a
  inb_S512x512_S512x1_0_498 : ∀ a, (![0, 498] : Fin 2 → Nat) a + S512x1.size a ≤ S512x512.size a
  inb_S512x512_S1x512_498_0 : ∀ a, (![498, 0] : Fin 2 → Nat) a + S1x512.size a ≤ S512x512.size a
  inb_S512x512_S512x1_0_499 : ∀ a, (![0, 499] : Fin 2 → Nat) a + S512x1.size a ≤ S512x512.size a
  inb_S512x512_S1x512_499_0 : ∀ a, (![499, 0] : Fin 2 → Nat) a + S1x512.size a ≤ S512x512.size a
  inb_S512x512_S512x1_0_500 : ∀ a, (![0, 500] : Fin 2 → Nat) a + S512x1.size a ≤ S512x512.size a
  inb_S512x512_S1x512_500_0 : ∀ a, (![500, 0] : Fin 2 → Nat) a + S1x512.size a ≤ S512x512.size a
  inb_S512x512_S512x1_0_501 : ∀ a, (![0, 501] : Fin 2 → Nat) a + S512x1.size a ≤ S512x512.size a
  inb_S512x512_S1x512_501_0 : ∀ a, (![501, 0] : Fin 2 → Nat) a + S1x512.size a ≤ S512x512.size a
  inb_S512x512_S512x1_0_502 : ∀ a, (![0, 502] : Fin 2 → Nat) a + S512x1.size a ≤ S512x512.size a
  inb_S512x512_S1x512_502_0 : ∀ a, (![502, 0] : Fin 2 → Nat) a + S1x512.size a ≤ S512x512.size a
  inb_S512x512_S512x1_0_503 : ∀ a, (![0, 503] : Fin 2 → Nat) a + S512x1.size a ≤ S512x512.size a
  inb_S512x512_S1x512_503_0 : ∀ a, (![503, 0] : Fin 2 → Nat) a + S1x512.size a ≤ S512x512.size a
  inb_S512x512_S512x1_0_504 : ∀ a, (![0, 504] : Fin 2 → Nat) a + S512x1.size a ≤ S512x512.size a
  inb_S512x512_S1x512_504_0 : ∀ a, (![504, 0] : Fin 2 → Nat) a + S1x512.size a ≤ S512x512.size a
  inb_S512x512_S512x1_0_505 : ∀ a, (![0, 505] : Fin 2 → Nat) a + S512x1.size a ≤ S512x512.size a
  inb_S512x512_S1x512_505_0 : ∀ a, (![505, 0] : Fin 2 → Nat) a + S1x512.size a ≤ S512x512.size a
  inb_S512x512_S512x1_0_506 : ∀ a, (![0, 506] : Fin 2 → Nat) a + S512x1.size a ≤ S512x512.size a
  inb_S512x512_S1x512_506_0 : ∀ a, (![506, 0] : Fin 2 → Nat) a + S1x512.size a ≤ S512x512.size a
  inb_S512x512_S512x1_0_507 : ∀ a, (![0, 507] : Fin 2 → Nat) a + S512x1.size a ≤ S512x512.size a
  inb_S512x512_S1x512_507_0 : ∀ a, (![507, 0] : Fin 2 → Nat) a + S1x512.size a ≤ S512x512.size a
  inb_S512x512_S512x1_0_508 : ∀ a, (![0, 508] : Fin 2 → Nat) a + S512x1.size a ≤ S512x512.size a
  inb_S512x512_S1x512_508_0 : ∀ a, (![508, 0] : Fin 2 → Nat) a + S1x512.size a ≤ S512x512.size a
  inb_S512x512_S512x1_0_509 : ∀ a, (![0, 509] : Fin 2 → Nat) a + S512x1.size a ≤ S512x512.size a
  inb_S512x512_S1x512_509_0 : ∀ a, (![509, 0] : Fin 2 → Nat) a + S1x512.size a ≤ S512x512.size a
  inb_S512x512_S512x1_0_510 : ∀ a, (![0, 510] : Fin 2 → Nat) a + S512x1.size a ≤ S512x512.size a
  inb_S512x512_S1x512_510_0 : ∀ a, (![510, 0] : Fin 2 → Nat) a + S1x512.size a ≤ S512x512.size a
  inb_S512x512_S512x1_0_511 : ∀ a, (![0, 511] : Fin 2 → Nat) a + S512x1.size a ≤ S512x512.size a
  inb_S512x512_S1x512_511_0 : ∀ a, (![511, 0] : Fin 2 → Nat) a + S1x512.size a ≤ S512x512.size a
  inb_S1x512_S1x512_0_0 : ∀ a, (![0, 0] : Fin 2 → Nat) a + S1x512.size a ≤ S1x512.size a
  shapeCasts_S1x512_S1x512 : S1x512.ShapeCasts S1x512
  inb_S512x512_S512x512_0_0 : ∀ a, (![0, 0] : Fin 2 → Nat) a + S512x512.size a ≤ S512x512.size a
  h_S512x512 : 0 < S512x512.numel

class Facts₀ : Prop where
  k0 : K0.Facts₀
  shapes1 : Shapes1.Facts₀
  shapes2 : Shapes2.Facts₀
attribute [instance] Facts₀.k0 Facts₀.shapes1 Facts₀.shapes2

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 13
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x1x512, .f32⟩
  | .hbm, ⟨4, _⟩ => ⟨S1x512x512, .f32⟩
  | .hbm, ⟨5, _⟩ => ⟨S1024x512x512, .f32⟩
  | .hbm, ⟨6, _⟩ => ⟨S1024x512x512, .f32⟩
  | .hbm, ⟨7, _⟩ => ⟨S1024x512x512, .f32⟩
  | .hbm, ⟨8, _⟩ => ⟨S_, .f32⟩
  | .hbm, ⟨9, _⟩ => ⟨S1024x512, .f32⟩
  | .hbm, ⟨10, _⟩ => ⟨S1x512, .f32⟩
  | .hbm, ⟨11, _⟩ => ⟨S1024x512, .f32⟩
  | .hbm, ⟨12, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.LibSpread.lean ====
/-
  A vector spread over a matrix, read at an index.

  The layout chains by which a kernel body turns a vector into a matrix operand, each read at `(p, q)` as one entry of the
  vector. A vector of `a` entries laid as a column and repeated along `b` columns reads its entry `p`; a vector of `b`
  entries laid as a row and repeated down `a` rows reads its entry `q`; with row `l` of a stacked array as the vector, these
  are the two factors of an outer product of row `l` of one array with row `l` of another. Also a vector with two leading
  unit axes, `[1, 1, a]`, against the plain vector `[a]`, in both directions. Each is stated over any element type and
  over literal coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-- A vector laid as a column and repeated along `b` columns reads, at `(p, q)`, its entry `p`. -/
theorem column_spread_apply {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      rw [Nat.mul_one, Nat.add_zero])

/-- A vector laid as a row and repeated down `a` rows reads, at `(p, q)`, its entry `q`. -/
theorem row_spread_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc (0 : Fin 1) q)

/-- Row `l` of a matrix as a vector: entry `n` is the matrix's `(l, n)`. -/
theorem rowOf_apply {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- Row `l` of a stacked array spread as a column over `b` columns: at `(p, q)` the array's `(l, p)`. -/
theorem rowAsColumn_apply {n0 a b l : ℕ} (hl : l < n0) (X : (⟨2, ![n0, a]⟩ : Shape).Idx → α)
    (hs : (⟨2, ![n0, a]⟩ : Shape).Slices ![l, 0] ⟨2, ![1, a]⟩) (hc1 : (⟨2, ![1, a]⟩ : Shape).ShapeCasts ⟨1, ![a]⟩)
    (hc2 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (shapeCast ⟨1, ![a]⟩ (extractStridedSlice ⟨2, ![1, a]⟩ ![l, 0] X hs) hc1) hc2) hb
        (ix2 p q) = X (ix2 (⟨l, hl⟩ : Fin n0) p) :=
  (column_spread_apply _ hc2 hb p q).trans (rowOf_apply hl X hs hc1 p)

/-- Row `l` of a stacked array spread as a row down `a` rows: at `(p, q)` the array's `(l, q)`. -/
theorem rowAsRow_apply {n0 a b l : ℕ} (hl : l < n0) (X : (⟨2, ![n0, b]⟩ : Shape).Idx → α)
    (hs : (⟨2, ![n0, b]⟩ : Shape).Slices ![l, 0] ⟨2, ![1, b]⟩) (hc1 : (⟨2, ![1, b]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ (extractStridedSlice ⟨2, ![1, b]⟩ ![l, 0] X hs) hc1) hc2) hb
        (ix2 p q) = X (ix2 (⟨l, hl⟩ : Fin n0) q) :=
  (row_spread_apply _ hc2 hb p q).trans (rowOf_apply hl X hs hc1 q)

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array cast to `[1, 1, a]` reads, at `(u, u', i)`, the operand at `i`. -/
theorem shapeCast_a_11a_apply {a : ℕ} (x : (⟨1, ![a]⟩ : Shape).Idx → α) (h : (⟨1, ![a]⟩ : Shape).ShapeCasts ⟨3, ![1, 1, a]⟩)
    (u u' : Fin 1) (i : Fin a) : shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp [hu, hu'])

end Cert.Lib

end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.MaxPlus.lean ====
/-
  The max-plus product, entry by entry.

  For a block `x` of 512 rows and a matrix `w` whose row `k` holds the weights of reduction coordinate `k`, the max-plus
  product at `(p, q)` is the maximum over `k` of `x (p, k) + w (k, q)`, taken on the extended reals from the bottom
  element. A body that runs over the reduction coordinates one at a time keeps a running maximum: after `n` coordinates it
  holds `runMax (term x w p q) n`, and each further coordinate `k` replaces it by its maximum with column `k` of `x`
  spread along the columns plus row `k` of `w` spread down the rows. The running maximum after all coordinates is the
  maximum over the finite index set in any order, since `max` is commutative and associative.
-/
import Idealize.ShloMosaic.Lib.ValueIdx
import Idealize.ShloMosaic.Lib.Pipeline.Value
import Idealize.ShloMosaic.Lib.ValueLayout
import Idealize.ShloMosaic.PureOps.Ideal.Laws
import proofs.«148101_j50062138802180_2_alg».proof.Proof.LibSpread
import proofs.«148101_j50062138802180_2_alg».proof.Proof.LibColumnBack

noncomputable section

namespace Cert.MaxPlus

open Idealize.ShloMosaic Idealize.ShloMosaic.ValueIdx

/-- The running maximum of the first `n` terms of a sequence, from the bottom element. -/
def runMax (f : ℕ → EReal) : ℕ → EReal
  | 0 => ⊥
  | n + 1 => max (runMax f n) (f n)

theorem runMax_succ (f : ℕ → EReal) (n : ℕ) : runMax f (n + 1) = max (runMax f n) (f n) := rfl

/-- The maximum over `Fin n` from the bottom element, in whatever order the fold takes it, is the running maximum
    after `n` terms. -/
theorem fold_univ_eq_runMax (g : ℕ → EReal) :
    ∀ n : ℕ, (Finset.univ : Finset (Fin n)).fold max ⊥ (fun k => g k.val) = runMax g n
  | 0 => by simp [runMax]
  | n + 1 => by
    rw [Fin.univ_castSuccEmb, Finset.fold_cons, Finset.fold_map, runMax_succ, max_comm]
    congr 1
    exact fold_univ_eq_runMax g n

/-- Term `k` of the max-plus product at `(p, q)`: `x (p, k) + w (k, q)` (the bottom element past the last
    coordinate, where the running maximum never looks). -/
def term (x w : Vec Ideal ⟨2, ![512, 512]⟩ .f32) (p q : Fin 512) (k : ℕ) : EReal :=
  if h : k < 512 then x (ix2 p ⟨k, h⟩) + w (ix2 ⟨k, h⟩ q) else ⊥

theorem term_of_lt (x w : Vec Ideal ⟨2, ![512, 512]⟩ .f32) (p q : Fin 512) (k : Fin 512) :
    term x w p q k.val = x (ix2 p k) + w (ix2 k q) := by
  unfold term; rw [dif_pos k.isLt]

/-- The max-plus product at `(p, q)`. -/
def prod (x w : Vec Ideal ⟨2, ![512, 512]⟩ .f32) (p q : Fin 512) : EReal := runMax (term x w p q) 512

/-- The product is the maximum over all 512 reduction coordinates, as a fold in any order. -/
theorem prod_eq_fold (x w : Vec Ideal ⟨2, ![512, 512]⟩ .f32) (p q : Fin 512) :
    prod x w p q = (Finset.univ : Finset (Fin 512)).fold max ⊥ (fun k => x (ix2 p k) + w (ix2 k q)) := by
  unfold prod
  rw [← fold_univ_eq_runMax]
  exact congrArg (fun f => Finset.fold max ⊥ f (Finset.univ : Finset (Fin 512))) (funext fun k => term_of_lt x w p q k)

/-- `A` holds the running maximum after `n` reduction coordinates, at every entry. -/
def IsAcc (x w : Vec Ideal ⟨2, ![512, 512]⟩ .f32) (n : ℕ) (A : FVec Ideal ⟨2, ![512, 512]⟩ .f32) : Prop :=
  ∀ p q : Fin 512, A (ix2 p q) = runMax (term x w p q) n

/-- The word of minus infinity is the bottom element. -/
theorem neg_inf_word : Ideal.ofBits .f32 0xFF800000#32 = ⊥ := by simp [Ideal.ofBits, Ideal.ieee]

/-- Before any coordinate the accumulator is minus infinity everywhere. -/
theorem IsAcc.zero (x w : Vec Ideal ⟨2, ![512, 512]⟩ .f32) :
    IsAcc x w 0 (broadcast ⟨2, ![512, 512]⟩ (Scalar.ofBits (F := Ideal) .f32 0xFF800000#32)) := by
  intro p q
  rw [broadcast_apply]
  exact neg_inf_word

/-- Column `k` of `x`, loaded as a `[512, 1]` piece, read at `(p, 0)`. -/
theorem ld_col (x : Vec Ideal ⟨2, ![512, 512]⟩ .f32) (k : ℕ) (hk : k < 512)
    (inb : ∀ a, (![0, k] : Fin 2 → ℕ) a + (⟨2, ![512, 1]⟩ : Shape).size a ≤ (⟨2, ![512, 512]⟩ : Shape).size a) (p : Fin 512) :
    View.ld (Val := Elt Ideal) (e' := .f32) x (Rect.unit (s := ⟨2, ![512, 512]⟩) ![0, k] (⟨2, ![512, 1]⟩ : Shape).size inb) (ix2 p (0 : Fin 1))
      = x (ix2 p ⟨k, hk⟩) := by
  refine congrArg x (funext fun a => Fin.ext ?_)
  match a with
  | ⟨0, _⟩ => show 0 + 1 * p.val = p.val; omega
  | ⟨1, _⟩ => show k + 1 * 0 = k; omega

/-- Row `k` of `w`, loaded as a `[1, 512]` piece, read at `(0, q)`. -/
theorem ld_row (w : Vec Ideal ⟨2, ![512, 512]⟩ .f32) (k : ℕ) (hk : k < 512)
    (inb : ∀ a, (![k, 0] : Fin 2 → ℕ) a + (⟨2, ![1, 512]⟩ : Shape).size a ≤ (⟨2, ![512, 512]⟩ : Shape).size a) (q : Fin 512) :
    View.ld (Val := Elt Ideal) (e' := .f32) w (Rect.unit (s := ⟨2, ![512, 512]⟩) ![k, 0] (⟨2, ![1, 512]⟩ : Shape).size inb) (ix2 (0 : Fin 1) q)
      = w (ix2 ⟨k, hk⟩ q) := by
  refine congrArg w (funext fun a => Fin.ext ?_)
  match a with
  | ⟨0, _⟩ => show k + 1 * 0 = k; omega
  | ⟨1, _⟩ => show 0 + 1 * q.val = q.val; omega

/-- One reduction coordinate: the maximum of the accumulator with column `k` of `x` spread along the columns plus
    row `k` of `w` spread down the rows is the running maximum after `k + 1` coordinates. -/
theorem IsAcc.step {x w : Vec Ideal ⟨2, ![512, 512]⟩ .f32} {k : ℕ} {A : FVec Ideal ⟨2, ![512, 512]⟩ .f32}
    (inbC : ∀ a, (![0, k] : Fin 2 → ℕ) a + (⟨2, ![512, 1]⟩ : Shape).size a ≤ (⟨2, ![512, 512]⟩ : Shape).size a)
    (inbR : ∀ a, (![k, 0] : Fin 2 → ℕ) a + (⟨2, ![1, 512]⟩ : Shape).size a ≤ (⟨2, ![512, 512]⟩ : Shape).size a)
    (c1 : (⟨2, ![512, 1]⟩ : Shape).ShapeCasts ⟨1, ![512]⟩) (c2 : (⟨1, ![512]⟩ : Shape).ShapeCasts ⟨2, ![512, 1]⟩)
    (r1 : (⟨2, ![1, 512]⟩ : Shape).ShapeCasts ⟨1, ![512]⟩) (r2 : (⟨1, ![512]⟩ : Shape).ShapeCasts ⟨2, ![1, 512]⟩)
    (bC : (⟨2, ![512, 1]⟩ : Shape).Broadcasts ⟨2, ![512, 512]⟩) (bR : (⟨2, ![1, 512]⟩ : Shape).Broadcasts ⟨2, ![512, 512]⟩)
    (h : IsAcc x w k A) :
    IsAcc x w (k + 1) (maximumf A (addf
      (broadcastTo ⟨2, ![512, 512]⟩ (shapeCast ⟨2, ![512, 1]⟩ (shapeCast ⟨1, ![512]⟩
        (View.ld (Val := Elt Ideal) (e' := .f32) x (Rect.unit (s := ⟨2, ![512, 512]⟩) ![0, k] (⟨2, ![512, 1]⟩ : Shape).size inbC)) c1) c2) bC)
      (broadcastTo ⟨2, ![512, 512]⟩ (shapeCast ⟨2, ![1, 512]⟩ (shapeCast ⟨1, ![512]⟩
        (View.ld (Val := Elt Ideal) (e' := .f32) w (Rect.unit (s := ⟨2, ![512, 512]⟩) ![k, 0] (⟨2, ![1, 512]⟩ : Shape).size inbR)) r1) r2) bR))) := by
  have hk : k < 512 := by
    have := inbR 0
    change k + 1 ≤ 512 at this
    omega
  intro p q
  rw [maximumf_apply, addf_apply, h p q, runMax_succ]
  congr 1
  rw [Cert.Lib.column_spread_apply, Cert.Lib.shapeCast_a1_a_apply, Cert.Lib.row_spread_apply, shapeCast_1a_a_apply,
    ld_col x k hk, ld_row w k hk]
  unfold term; rw [dif_pos hk]

/-- The bias row spread down the rows, read at `(p, q)`. -/
theorem bias_spread_apply (b : Vec Ideal ⟨2, ![1, 512]⟩ .f32) (c : (⟨2, ![1, 512]⟩ : Shape).ShapeCasts ⟨2, ![1, 512]⟩)
    (bR : (⟨2, ![1, 512]⟩ : Shape).Broadcasts ⟨2, ![512, 512]⟩) (p q : Fin 512) :
    broadcastTo ⟨2, ![512, 512]⟩ (shapeCast ⟨2, ![1, 512]⟩ b c) bR (ix2 p q) = b (ix2 (0 : Fin 1) q) := by
  rw [broadcastTo_1b_ab_apply, shapeCast_self]

/-- After all 512 coordinates, the maximum with the bias row spread down the rows is, at `(p, q)`, the larger of the
    max-plus product there and entry `q` of the bias. -/
theorem IsAcc.final {x w : Vec Ideal ⟨2, ![512, 512]⟩ .f32} {A : FVec Ideal ⟨2, ![512, 512]⟩ .f32}
    (b : Vec Ideal ⟨2, ![1, 512]⟩ .f32) (c : (⟨2, ![1, 512]⟩ : Shape).ShapeCasts ⟨2, ![1, 512]⟩)
    (bR : (⟨2, ![1, 512]⟩ : Shape).Broadcasts ⟨2, ![512, 512]⟩) (h : IsAcc x w 512 A) (p q : Fin 512) :
    maximumf A (broadcastTo ⟨2, ![512, 512]⟩ (shapeCast ⟨2, ![1, 512]⟩ b c) bR) (ix2 p q)
      = max (prod x w p q) (b (ix2 (0 : Fin 1) q)) := by
  rw [maximumf_apply, h p q, bias_spread_apply]; rfl

/-- The whole result as one function of the three argument arrays: at `(r, q)` the larger of the maximum over `k` of
    `x (r, k) + weight (q, k)` and `bias q`. -/
def G (a0 : Vec Ideal ⟨2, ![1024, 512]⟩ .f32) (a1 : Vec Ideal ⟨2, ![512, 512]⟩ .f32) (a2 : Vec Ideal ⟨1, ![512]⟩ .f32) :
    Vec Ideal ⟨2, ![1024, 512]⟩ .f32 :=
  fun i => max ((Finset.univ : Finset (Fin 512)).fold max ⊥ fun k => a0 (ix2 (i 0) k) + a1 (ix2 (i 1) k)) (a2 (ix1 (i 1)))

end Cert.MaxPlus

end
-- ==== Proof.Body.lean ====
/-
  What the kernel body leaves in its output block.

  The body keeps a `[512, 512]` accumulator, minus infinity at first, and for each of the 512 reduction coordinates `k`
  replaces it by its maximum with column `k` of the `x` block spread along the columns plus row `k` of the transposed
  weights spread down the rows; at the end it stores the maximum of the accumulator with the bias row spread down the
  rows. Entry `(p, q)` of the stored block is therefore the larger of the max-plus product of the two blocks at `(p, q)`
  and entry `q` of the bias row.
-/
import proofs.«148101_j50062138802180_2_alg».proof.Proof.FramePatchedKernelIdeal
import proofs.«148101_j50062138802180_2_alg».proof.Proof.MaxPlus
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen Cert.KernelIdeal.GenP Cert.MaxPlus

/-- Both offsets of a whole-buffer rectangle are zero. -/
theorem hz : (![0, 0] : Fin 2 → Nat) = fun _ => 0 := funext fun a => by fin_cases a <;> rfl

set_option maxRecDepth 100000 in
set_option maxHeartbeats 4000000 in
/-- What the body leaves in the output block, at `(p, q)`: the larger of the max-plus product of the `x` block with the
    transposed weights there and entry `q` of the bias row. The body's one store holds the accumulator after all 512
    reduction coordinates, joined with the bias; the accumulator is followed coordinate by coordinate, from minus
    infinity (`IsAcc.zero`) through one `IsAcc.step` per column of `x` and row of the transposed weights. -/
theorem out0_3_apply (x0 x1 : Vec Ideal S512x512 .f32) (x2 : Vec Ideal S1x512 .f32) (p q : Fin 512) :
    out0_3 (F := Ideal) x0 x1 x2 (ix2 p q) = max (prod x0 x1 p q) (x2 (ix2 (0 : Fin 1) q)) := by
  unfold out0_3
  rw [View.canon_unit_zero hz]
  refine (IsAcc.final (x := x0) (w := x1) _ _ _ ?_ p q).trans ?_
  · repeat' first
      | apply IsAcc.step (bC := Gen.broadcasts_S512x1_S512x512) (bR := Gen.broadcasts_S1x512_S512x512)
      | exact IsAcc.zero _ _
  · rw [View.ld_unit_zero hz]

/-- The same entry from the three argument arrays, when the blocks the body loaded read them: row `j 0` of the `x` block
    is row `i 0` of `x`, column `j 1` of the transposed-weight block is row `i 1` of `weight`, and entry `j 1` of the bias
    row is entry `i 1` of the bias. -/
theorem block_entry (x0 x1 : Vec Ideal S512x512 .f32) (x2 : Vec Ideal S1x512 .f32)
    (a0 : Vec Ideal ⟨2, ![1024, 512]⟩ .f32) (a1 : Vec Ideal ⟨2, ![512, 512]⟩ .f32) (a2 : Vec Ideal ⟨1, ![512]⟩ .f32)
    (p q : Fin 512) (i : (⟨2, ![1024, 512]⟩ : Shape).Idx)
    (h0 : ∀ k : Fin 512, x0 (ix2 p k) = a0 (ix2 (i 0) k))
    (h1 : ∀ k : Fin 512, x1 (ix2 k q) = a1 (ix2 (i 1) k))
    (h2 : x2 (ix2 (0 : Fin 1) q) = a2 (ix1 (i 1))) :
    out0_3 (F := Ideal) x0 x1 x2 (ix2 p q) = G a0 a1 a2 i := by
  rw [out0_3_apply, prod_eq_fold, h2]
  unfold G
  refine congrArg (fun z => max z (a2 (ix1 (i 1)))) ?_
  refine congrArg (fun f => Finset.fold max ⊥ f (Finset.univ : Finset (Fin 512))) (funext fun k => ?_)
  show x0 (ix2 p k) + x1 (ix2 k q) = _
  rw [h0, h1]

end Cert.KernelIdeal.Body

end
-- ==== Proof.KernelValue.lean ====
/-
  The kernel's result array after the run.

  The region finds `x`, the weights transposed and the bias laid as one row. The grid has two points; point `t` loads
  rows `512 t` to `512 t + 511` of `x`, the whole transposed weights and the whole bias row, and writes back block row
  `t` of the result. Entry `(p, q)` of that block is the body's result on those blocks, which is the max-plus product with
  the bias of the three arguments at `(512 t + p, q)`. The two blocks cover the result array, so after the run it holds
  `MaxPlus.G` of the arguments.
-/
import proofs.«148101_j50062138802180_2_alg».proof.Proof.FramePatchedKernelIdeal
import proofs.«148101_j50062138802180_2_alg».proof.Proof.Body
import proofs.«148101_j50062138802180_2_alg».proof.Proof.MaxPlus
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KernelValue

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)
open Cert.MaxPlus

variable (m : (ℓ : Loc nD τ sig) → Buf (Elt Ideal) ℓ) (ρ : Dev nD → PrngReg)

/-! ## The arrays the region finds -/

/-- The second window's array is the weights transposed. -/
theorem V_main_v0 (c : Dev nD) : (V m c main_v0 : S512x512.Idx → Elt Ideal .f32)
    = transpose S512x512 [1, 0] (m ((c : Thread nD τ).loc main_arg1)) Gen.transposes_S512x512_S512x512_1_0 := by
  dsimp only [GenP.V, Gen.hostOps0]; after_results

/-- The third window's array is the bias laid as one row. -/
theorem V_main_v1 (c : Dev nD) : (V m c main_v1 : S1x512.Idx → Elt Ideal .f32)
    = shapeCast S1x512 (m ((c : Thread nD τ).loc main_arg2)) Gen.shapeCasts_S512_S1x512 := by
  dsimp only [GenP.V, Gen.hostOps0]; after_results; rfl

/-! ## The grid -/

/-- The printed index maps over the two grid points: the `x` block and the output block are block row `t`, the
    transposed weights and the bias row are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the max-plus product with the bias, of the three arguments. -/
theorem flushed3_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  obtain ⟨e00, e01, e10, e11, e20, e21, e30, e31⟩ := idx_facts t
  funext j
  show out0_3 (iblk m c 0 t) (iblk m c 1 t) (iblk m c 2 t) j
    = G (m ((c : Thread nD τ).loc main_arg0)) (m ((c : Thread nD τ).loc main_arg1)) (m ((c : Thread nD τ).loc main_arg2))
        (((cfg0.win 3).blk t).view.emb j)
  refine (congrArg (out0_3 (iblk m c 0 t) (iblk m c 1 t) (iblk m c 2 t)) (eq_ix2 (n0 := 512) (n1 := 512) j)).trans ?_
  refine Body.block_entry _ _ _ _ _ _ (j 0) (j 1) _ (fun k => ?_) (fun k => ?_) ?_
  · show V m c main_arg0 (((cfg0.win 0).blk t).view.emb (ix2 (j 0) k)) = _
    rw [V_main_arg0]
    refine congrArg (m ((c : Thread nD τ).loc main_arg0)) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 512 + 1 * k.val = k.val; omega
  · show V m c main_v0 (((cfg0.win 1).blk t).view.emb (ix2 k (j 1))) = _
    rw [V_main_v0]
    have hi : ((cfg0.win 1).blk t).view.emb (ix2 k (j 1))
        = ix2 k (⟨(((cfg0.win 3).blk t).view.emb j 1).val, by
            have : (((cfg0.win 3).blk t).view.emb j 1).val = win0_3.index t (1 : Fin 2) * 512 + 1 * (j 1).val := rfl
            have hj : (j 1).val < 512 := (j 1).isLt
            omega⟩ : Fin 512) :=
      funext fun a => Fin.ext (by
        match a with
        | ⟨0, _⟩ => show win0_1.index t (0 : Fin 2) * 512 + 1 * k.val = k.val; omega
        | ⟨1, _⟩ => show win0_1.index t (1 : Fin 2) * 512 + 1 * (j 1).val = win0_3.index t (1 : Fin 2) * 512 + 1 * (j 1).val; omega)
    rw [hi, transpose_ix2_apply]
    rfl
  · show V m c main_v1 (((cfg0.win 2).blk t).view.emb (ix2 (0 : Fin 1) (j 1))) = _
    rw [V_main_v1]
    have hi : ((cfg0.win 2).blk t).view.emb (ix2 (0 : Fin 1) (j 1))
        = ix2 (0 : Fin 1) (⟨(((cfg0.win 3).blk t).view.emb j 1).val, by
            have : (((cfg0.win 3).blk t).view.emb j 1).val = win0_3.index t (1 : Fin 2) * 512 + 1 * (j 1).val := rfl
            have hj : (j 1).val < 512 := (j 1).isLt
            omega⟩ : Fin 512) :=
      funext fun a => Fin.ext (by
        match a with
        | ⟨0, _⟩ => show win0_2.index t (0 : Fin 2) * 1 + 1 * 0 = 0; omega
        | ⟨1, _⟩ => show win0_2.index t (1 : Fin 2) * 512 + 1 * (j 1).val = win0_3.index t (1 : Fin 2) * 512 + 1 * (j 1).val; omega)
    rw [hi, shapeCast_a_1a_apply]
    rfl

/-- An index of the result array is in point `t`'s block iff each coordinate is in the block's range on its axis. -/
theorem mem_blk3 (t : Fin cfg0.N) (i : S1024x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v2).slice (win0_3.rect t)).set ↔ _
  rw [View.set_slice_whole, Rect.mem_set_unit]
  exact Iff.rfl

/-- The two blocks of 512 rows cover the result array: row `r` is in block `r / 512`. -/
theorem cover3 (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : cfg0.N = 2 := N_0
  refine ⟨⟨(i 0).val / 512, by rw [hN]; omega⟩, flush0_3 _, ?_⟩
  rw [mem_blk3]
  obtain ⟨-, -, -, -, -, -, e30, e31⟩ := idx_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e30]; show (i 0).val / 512 * 512 ≤ (i 0).val ∧ (i 0).val < (i 0).val / 512 * 512 + 512; omega
  | ⟨1, _⟩ =>
    show win0_3.index _ (1 : Fin 2) * 512 ≤ (i 1).val ∧ (i 1).val < win0_3.index _ (1 : Fin 2) * 512 + 512
    rw [e31]; omega

/-- The result array after the run is the max-plus product with the bias, of the three arguments. -/
theorem final3 (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed3_eq m c t) cover3

/-! ## The run -/

/-- Every weakly fair execution of the idealized kernel terminates with the result array at the max-plus product with
    the bias and the three arguments as launched. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.KernelValue

end
-- ==== Proof.RefValue.lean ====
/-
  The reference computes the max-plus product.

  The reference spreads `x` over a new middle axis and `weight` over a new leading axis, adds the two `[1024, 512, 512]`
  arrays, takes the maximum over the last axis from minus infinity, and finally the maximum with the bias spread down the
  rows. At `(r, q)` the summand at reduction coordinate `k` is `x (r, k) + weight (q, k)`, so the reduce is the maximum of
  these over `k` from the bottom element, and the result is the larger of that and `bias q`: the function `MaxPlus.G`.
-/
import proofs.«148101_j50062138802180_2_alg».proof.Proof.Gen.ReferenceIdeal.Read
import proofs.«148101_j50062138802180_2_alg».proof.Proof.MaxPlus
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The last axis of the `[1024, 512, 512]` array is the one reduced away. -/
theorem reduces : S1024x512x512.Reduces [2] S1024x512 := by decide

/-- The result index `(r, q)` with reduction coordinate `k` put back is `(r, q, k)`. -/
theorem lift_eq (i : S1024x512.Idx) (k : Fin (S1024x512x512.size 2)) :
    reduces.lift i k = ix3 (i 0) (i 1) (⟨k.val, k.isLt⟩ : Fin 512) := by
  funext c; apply Fin.ext
  fin_cases c <;> rfl

/-- The summand of the reduce at `(r, q, k)` is `x (r, k) + weight (q, k)`. -/
theorem summand_apply (a0 : Vec Ideal S1024x512 .f32) (a1 : Vec Ideal S512x512 .f32) (r : Fin 1024) (q k : Fin 512) :
    val_main_v4 (F := Ideal) a0 a1 (ix3 r q k) = a0 (ix2 r k) + a1 (ix2 q k) := by
  rw [val_main_v4_apply, val_main_v2_apply, val_main_v0_apply, val_main_v3_apply, val_main_v1_apply]
  have e0 : idx_main_v0 (idx_main_v2 (ix3 r q k)) = ix2 r k :=
    funext fun a => Fin.ext (by match a with | ⟨0, _⟩ => rfl | ⟨1, _⟩ => rfl)
  have e1 : idx_main_v1 (idx_main_v3 (ix3 r q k)) = ix2 q k :=
    funext fun a => Fin.ext (by match a with | ⟨0, _⟩ => rfl | ⟨1, _⟩ => rfl)
  rw [e0, e1]
  rfl

/-- The bias spread down the rows reads, at `(r, q)`, entry `q` of the bias. -/
theorem bias_apply (a2 : Vec Ideal S512 .f32) (i : S1024x512.Idx) :
    val_main_v7 (F := Ideal) a2 i = a2 (ix1 (i 1)) := by
  rw [val_main_v7_apply, val_main_v6_apply]
  exact congrArg a2 (funext fun a => Fin.ext (by match a with | ⟨0, _⟩ => rfl))

/-- The reference's result is the max-plus product with the bias, as one function of the three arguments. -/
theorem ref_eq_G (a0 : Vec Ideal S1024x512 .f32) (a1 : Vec Ideal S512x512 .f32) (a2 : Vec Ideal S512 .f32) :
    val_main_v8 (F := Ideal) a0 a1 a2 = Cert.MaxPlus.G a0 a1 a2 := by
  funext i
  rw [val_main_v8_apply, bias_apply]
  show max (val_main_v5 (F := Ideal) a0 a1 i) (a2 (ix1 (i 1))) = max _ (a2 (ix1 (i 1)))
  refine congrArg (fun z => max z (a2 (ix1 (i 1)))) ?_
  unfold val_main_v5
  rw [Host.reduce_eq_fold_single FloatOps.maximumf _ _ reducesTo_S1024x512x512_S1024x512_d2 reduces h_S_ i]
  have hinit : val_main_cst (F := Ideal) (Shape.Idx.first h_S_) = (⊥ : EReal) := Cert.MaxPlus.neg_inf_word
  rw [hinit]
  have hf : (val_main_v4 (F := Ideal) a0 a1 ∘ reduces.lift i)
      = fun k : Fin 512 => a0 (ix2 (i 0) k) + a1 (ix2 (i 1) k) :=
    funext fun k => by
      show val_main_v4 (F := Ideal) a0 a1 (reduces.lift i k) = _
      exact (congrArg (val_main_v4 (F := Ideal) a0 a1) (lift_eq i k)).trans
        (summand_apply a0 a1 (i 0) (i 1) ⟨k.val, k.isLt⟩)
  rw [hf]
  rfl

end Cert.ReferenceIdeal.RefValue

end
-- ==== Proof.lean ====
/-
  The max-plus product with a bias: `out (r, q) = max (max over k of (x (r, k) + weight (q, k))) (bias q)`.

  The kernel transposes the weights, lays the bias as one row, and runs a grid of two blocks of 512 rows; its body walks
  the 512 reduction coordinates one at a time with a running maximum from minus infinity. The reference adds the two
  operands spread over a `[1024, 512, 512]` array, takes the maximum over the last axis from minus infinity, and joins the
  bias. On the extended reals both are the one function `MaxPlus.G` of the three arguments: a running maximum and a
  reduce differ only in the order in which `max`, commutative and associative, is applied. No finiteness of the inputs is
  needed. The idealization rewrote nothing, so the kernel and its idealization are the same text.
-/
import proofs.«148101_j50062138802180_2_alg».proof.Defs
import proofs.«148101_j50062138802180_2_alg».proof.Proof.Gen.Kernel
import proofs.«148101_j50062138802180_2_alg».proof.Proof.Gen.Kernel.Skeleton
import proofs.«148101_j50062138802180_2_alg».proof.Proof.Gen.Kernel.Launch
import proofs.«148101_j50062138802180_2_alg».proof.Proof.Gen.Kernel.Points
import proofs.«148101_j50062138802180_2_alg».proof.Proof.FramePatchedKernel
import proofs.«148101_j50062138802180_2_alg».proof.Proof.Gen.KernelIdeal
import proofs.«148101_j50062138802180_2_alg».proof.Proof.Gen.KernelIdeal.Skeleton
import proofs.«148101_j50062138802180_2_alg».proof.Proof.Gen.KernelIdeal.Launch
import proofs.«148101_j50062138802180_2_alg».proof.Proof.Gen.KernelIdeal.Points
import proofs.«148101_j50062138802180_2_alg».proof.Proof.FramePatchedKernelIdeal
import proofs.«148101_j50062138802180_2_alg».proof.Proof.Gen.ReferenceIdeal
import proofs.«148101_j50062138802180_2_alg».proof.Proof.Gen.ReferenceIdeal.Run
import proofs.«148101_j50062138802180_2_alg».proof.Proof.Gen.ReferenceIdeal.Read
import proofs.«148101_j50062138802180_2_alg».proof.Proof.Gen.Pre_finite_inputs
import proofs.«148101_j50062138802180_2_alg».proof.Proof.KernelValue
import proofs.«148101_j50062138802180_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- Both programs end with the result at `MaxPlus.G` of arguments that agree. -/
theorem algebraic : Cert.algebraic_KernelIdeal_ReferenceIdeal := by
  intro m ρ m' ρ' _ hagree
  refine ⟨fun c => Cert.MaxPlus.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.ref_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
